-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x256 .f32) (main_arg1 : FVec F S8192x8192 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S1024x2048 : Shape := ⟨2, ![1024, 2048]⟩
abbrev S1024x256 : Shape := ⟨2, ![1024, 256]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1 : Shape := ⟨1, ![1]⟩

abbrev nBuf : Space → Nat
  | .hbm => 14
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S1x1, .f32⟩
  | .hbm, ⟨13, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x256, .f32⟩
  | .local _ .vmem, ⟨3, _⟩ => ⟨S1024x256, .f32⟩
  | .local _ .vmem, ⟨4, _⟩ => ⟨S2048x256, .f32⟩
  | .local _ .vmem, ⟨5, _⟩ => ⟨S2048x256, .f32⟩
  | .local _ .vmem, ⟨6, _⟩ => ⟨S1x1, .f32⟩
  | .local _ .vmem, ⟨7, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c3_i32 : BitVec 32 := 3#32
  let v38 : BitVec 1 := Scalar.cmpi .eq arg1 c3_i32
  let v39 : BitVec 1 := Scalar.andi v37 v38
  let v40 : BitVec 32 := Scalar.extui v39
  let c0_i32_13 : BitVec 32 := 0#32
  let v41 : BitVec 1 := Scalar.cmpi .ne v40 c0_i32_13
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  iota_S1024x2048_d0_w32 : S1024x2048.Iotas .tc 32 [0]
  iota_S1024x2048_d1_w32 : S1024x2048.Iotas .tc 32 [1]
  natLt_1_32 : 1 < 32
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S256x8192 : Shape := ⟨2, ![256, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_cst : Ref sig .tc := ⟨.hbm, 22, rfl⟩
abbrev main_call1_v5 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Runs.lean ====
/-
  What the three control cases of the kernel body share: the two branch conditions in closed form over the
  8 × 4 grid (the first point zeroes the running sum, the last point writes the scaled sum out), where the
  output window is idle, and names for the staging and scratch memrefs the body is called with.
-/
import proofs.«104046_j11570641895637_2_alg».proof.Proof.Gen.Kernel.Launch
import proofs.«104046_j11570641895637_2_alg».proof.Proof.Gen.Kernel.Skeleton
import proofs.«104046_j11570641895637_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The body zeroes the running sum exactly when both grid coordinates are 0. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is point 0 of the 32 points. -/
theorem hcondFirst : ∀ t : Fin cfg0.N, condFirst (grid0.coords t) ↔ t.val = 0 :=
  (by decide +kernel : ∀ t : Fin grid0.N, condFirst (grid0.coords t) ↔ t.val = 0)

/-- The body writes the result out exactly when the coordinates are (7, 3). -/
abbrev condLast (i : grid0.Coords) : Prop := k0_cond2 i = 1#1
/-- That is point 31. -/
theorem hcondLast : ∀ t : Fin cfg0.N, condLast (grid0.coords t) ↔ t.val = 31 :=
  (by decide +kernel : ∀ t : Fin grid0.N, condLast (grid0.coords t) ↔ t.val = 31)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
/-- Away from the last point the body stores nothing into the output window, and the pipeline does not write it back. -/
theorem idleAt_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel
/-- At the last point it is live. -/
theorem liveAt_3 : ∀ t : Fin cfg0.N, condLast (grid0.coords t) → cfg0.idle 3 (grid0.coords t) = false := by decide +kernel

/-! ## The memrefs the body is called with -/

abbrev VO : View sig .tc .vmem S1x1 .f32 := (Memref.whole cc0_stg3_0 : Memref sig .tc .vmem S1x1 .f32).view
abbrev ms_0 (t : Fin cfg0.N) : Memref sig .tc .vmem S1024x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1 .f32 := win0_3.stage (cfg0.slots t 3)
abbrev hs_3 (t : Fin cfg0.N) : (ms_3 t).IsWhole := hstage0_3 ((cfg0.slots t 3).cast nbuf0_3)
/-- The scratch cell holding the running sum between grid points. -/
abbrev scM : Memref sig .tc .vmem S1x1 .f32 := Memref.whole cc0_scratch0
abbrev VS : View sig .tc .vmem S1x1 .f32 := scM.view

/-- The scoped rest of the launch is the scratch cell at some contents, beside the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.K.RunA.lean ====
/-
  The body at the first grid point: it zeroes the running sum, then proceeds as at a middle point; the output
  window is untouched.
-/
import proofs.«104046_j11570641895637_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the scratch cell (last first: the updated sum, then the zero), with the body's triple:
    the scratch cell may hold anything on entry. -/
noncomputable def kernelRun_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S1024x2048 .f32) (x1 : Vec F S1024x256 .f32) (x2 : Vec F S2048x256 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.RunB.lean ====
/-
  The body at a middle grid point (neither first nor last): it loads the three input blocks and the running sum,
  and stores the running sum plus the tile's sum back into the scratch cell; the output window is untouched.
-/
import proofs.«104046_j11570641895637_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the scratch cell (last first), with the body's triple: from whole memrefs holding the
    three blocks, the untouched output cell and the running sum, to the same with the scratch cell rewritten. -/
noncomputable def kernelRun_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S1024x2048 .f32) (x1 : Vec F S1024x256 .f32) (x2 : Vec F S2048x256 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.RunC.lean ====
/-
  The body at the last grid point: as at a middle point, and then the running sum, scaled and divided, is stored
  into the output cell.
-/
import proofs.«104046_j11570641895637_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output cell and in the scratch cell (last first), with the body's triple: the
    output cell may hold anything on entry. -/
noncomputable def kernelRun_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S1024x2048 .f32) (x1 : Vec F S1024x256 .f32) (x2 : Vec F S2048x256 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Frame.lean ====
/-
  The kernel region's proof data and body obligation, at any contents `V` of the buffers when the region is entered.
  The scratch cell carries the running sum from grid point to grid point: after point `n` it holds what the case
  of that point computes from the three blocks at the point and from what point `n − 1` left. The output cell is
  stored at the last point only. The two embedding windows read one array; each holds half of it.
-/
import proofs.«104046_j11570641895637_2_alg».proof.Proof.K.RunA
import proofs.«104046_j11570641895637_2_alg».proof.Proof.K.RunB
import proofs.«104046_j11570641895637_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Region

/-! ## What each case leaves -/

/-- What case A leaves in the output cell: its pieces read back (none but at the last point). -/
def out_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i) (x0 : Vec F S1024x2048 .f32) (x1 : Vec F S1024x256 .f32) (x2 : Vec F S2048x256 .f32) : Vec F S1x1 .f32 :=
  VO.read (Elt F) (VO.writes (Elt F) VO.junk (kernelRun_A c i arg2 harg2 arg3 harg3 arg4 harg4 arg5 harg5 arg6 harg6 hc0 hc1 x0 x1 x2).1)
/-- Case A's stores into the scratch cell cover it. -/
theorem scover_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i) (x0 : Vec F S1024x2048 .f32) (x1 : Vec F S1024x256 .f32) (x2 : Vec F S2048x256 .f32) (y : S1x1.Idx) :
    ∃ pc ∈ (kernelRun_A c i arg2 harg2 arg3 harg3 arg4 harg4 arg5 harg5 arg6 harg6 hc0 hc1 x0 x1 x2).2.1, y ∈ pc.1.set :=
  View.cover_of_tiledL (kernelRun_A c i arg2 harg2 arg3 harg3 arg4 harg4 arg5 harg5 arg6 harg6 hc0 hc1 x0 x1 x2).2.1 S1x1.size (by sl_kernel_rfl) y
/-- What case A leaves in the scratch cell: the running sum after the point. -/
def sout_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i) (x0 : Vec F S1024x2048 .f32) (x1 : Vec F S1024x256 .f32) (x2 : Vec F S2048x256 .f32) : Vec F S1x1 .f32 :=
  VS.read (Elt F) (VS.writes (Elt F) VS.junk (kernelRun_A c i arg2 harg2 arg3 harg3 arg4 harg4 arg5 harg5 arg6 harg6 hc0 hc1 x0 x1 x2).2.1)

/-- What case B leaves in the output cell: its pieces read back (none but at the last point). -/
def out_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i) (x0 : Vec F S1024x2048 .f32) (x1 : Vec F S1024x256 .f32) (x2 : Vec F S2048x256 .f32) (xs0 : Vec F S1x1 .f32) : Vec F S1x1 .f32 :=
  VO.read (Elt F) (VO.writes (Elt F) VO.junk (kernelRun_B c i arg2 harg2 arg3 harg3 arg4 harg4 arg5 harg5 arg6 harg6 hc0 hc1 x0 x1 x2 xs0).1)
/-- Case B's stores into the scratch cell cover it. -/
theorem scover_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i) (x0 : Vec F S1024x2048 .f32) (x1 : Vec F S1024x256 .f32) (x2 : Vec F S2048x256 .f32) (xs0 : Vec F S1x1 .f32) (y : S1x1.Idx) :
    ∃ pc ∈ (kernelRun_B c i arg2 harg2 arg3 harg3 arg4 harg4 arg5 harg5 arg6 harg6 hc0 hc1 x0 x1 x2 xs0).2.1, y ∈ pc.1.set :=
  View.cover_of_tiledL (kernelRun_B c i arg2 harg2 arg3 harg3 arg4 harg4 arg5 harg5 arg6 harg6 hc0 hc1 x0 x1 x2 xs0).2.1 S1x1.size (by sl_kernel_rfl) y
/-- What case B leaves in the scratch cell: the running sum after the point. -/
def sout_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i) (x0 : Vec F S1024x2048 .f32) (x1 : Vec F S1024x256 .f32) (x2 : Vec F S2048x256 .f32) (xs0 : Vec F S1x1 .f32) : Vec F S1x1 .f32 :=
  VS.read (Elt F) (VS.writes (Elt F) VS.junk (kernelRun_B c i arg2 harg2 arg3 harg3 arg4 harg4 arg5 harg5 arg6 harg6 hc0 hc1 x0 x1 x2 xs0).2.1)

/-- What case C leaves in the output cell: its pieces read back (none but at the last point). -/
def out_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i) (x0 : Vec F S1024x2048 .f32) (x1 : Vec F S1024x256 .f32) (x2 : Vec F S2048x256 .f32) (xs0 : Vec F S1x1 .f32) : Vec F S1x1 .f32 :=
  VO.read (Elt F) (VO.writes (Elt F) VO.junk (kernelRun_C c i arg2 harg2 arg3 harg3 arg4 harg4 arg5 harg5 arg6 harg6 hc0 hc1 x0 x1 x2 xs0).1)
/-- Case C's stores into the scratch cell cover it. -/
theorem scover_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i) (x0 : Vec F S1024x2048 .f32) (x1 : Vec F S1024x256 .f32) (x2 : Vec F S2048x256 .f32) (xs0 : Vec F S1x1 .f32) (y : S1x1.Idx) :
    ∃ pc ∈ (kernelRun_C c i arg2 harg2 arg3 harg3 arg4 harg4 arg5 harg5 arg6 harg6 hc0 hc1 x0 x1 x2 xs0).2.1, y ∈ pc.1.set :=
  View.cover_of_tiledL (kernelRun_C c i arg2 harg2 arg3 harg3 arg4 harg4 arg5 harg5 arg6 harg6 hc0 hc1 x0 x1 x2 xs0).2.1 S1x1.size (by sl_kernel_rfl) y
/-- What case C leaves in the scratch cell: the running sum after the point. -/
def sout_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i) (x0 : Vec F S1024x2048 .f32) (x1 : Vec F S1024x256 .f32) (x2 : Vec F S2048x256 .f32) (xs0 : Vec F S1x1 .f32) : Vec F S1x1 .f32 :=
  VS.read (Elt F) (VS.writes (Elt F) VS.junk (kernelRun_C c i arg2 harg2 arg3 harg3 arg4 harg4 arg5 harg5 arg6 harg6 hc0 hc1 x0 x1 x2 xs0).2.1)

/-- At the last point the store into the output cell covers it. -/
theorem cover_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i) (x0 : Vec F S1024x2048 .f32) (x1 : Vec F S1024x256 .f32) (x2 : Vec F S2048x256 .f32) (xs0 : Vec F S1x1 .f32) (y : S1x1.Idx) :
    ∃ pc ∈ (kernelRun_C c i arg2 harg2 arg3 harg3 arg4 harg4 arg5 harg5 arg6 harg6 hc0 hc1 x0 x1 x2 xs0).1, y ∈ pc.1.set :=
  View.cover_of_tiledL (kernelRun_C c i arg2 harg2 arg3 harg3 arg4 harg4 arg5 harg5 arg6 harg6 hc0 hc1 x0 x1 x2 xs0).1 S1x1.size (by sl_kernel_rfl) y

section Region
variable (V : (c : Dev nD) → (b : Ref sig .tc) → Buf (Elt F) ((c : Thread nD τ).loc b))

/-! ## The running contents, point by point -/

/-- What the output cell and the scratch cell hold after the body at point `n` (a pair: output, scratch): the
    case of the point, run on the point's blocks and on what the point before left in the scratch cell. -/
def outsAt (c : Dev nD) : (n : ℕ) → n < cfg0.N → Vec F S1x1 .f32 × Vec F S1x1 .f32
  | 0, hn =>
    (out_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr rfl) (fun h => absurd (show (0 : ℕ) = 31 from (hcondLast ⟨0, hn⟩).mp h) (by decide)) (iblk V c 0 ⟨0, hn⟩) (iblk V c 1 ⟨0, hn⟩) (iblk V c 2 ⟨0, hn⟩),
     sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr rfl) (fun h => absurd (show (0 : ℕ) = 31 from (hcondLast ⟨0, hn⟩).mp h) (by decide)) (iblk V c 0 ⟨0, hn⟩) (iblk V c 1 ⟨0, hn⟩) (iblk V c 2 ⟨0, hn⟩))
  | n + 1, hn =>
    if h1 : n + 1 = 31 then
      (out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => Nat.succ_ne_zero n ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
       sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => Nat.succ_ne_zero n ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
    else
      (out_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => Nat.succ_ne_zero n ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2,
       sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => Nat.succ_ne_zero n ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

/-- At the first point: the first case's contents. -/
theorem outsAt_A (c : Dev nD) (t : Fin cfg0.N) (h0 : t.val = 0) (h1 : ¬t.val = 31) :
    outsAt V c t.val t.isLt = (out_A c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t), sout_A c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact absurd h0 (Nat.succ_ne_zero n)

/-- At a middle point: the middle case's contents, over what the point before left. -/
theorem outsAt_B (c : Dev nD) (t : Fin cfg0.N) (h0 : ¬t.val = 0) (h1 : ¬t.val = 31) :
    outsAt V c t.val t.isLt = (out_B c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2, sout_B c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact absurd rfl h0
  | succ n => exact (dif_neg h1).trans rfl

/-- At the last point: the last case's contents, over what the point before left. -/
theorem outsAt_C (c : Dev nD) (t : Fin cfg0.N) (h0 : ¬t.val = 0) (h1 : t.val = 31) :
    outsAt V c t.val t.isLt = (out_C c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2, sout_C c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the scratch cell at the running sum -/

/-- Before point `n`: at the start the launch's scoped rest (the scratch cell at anything); afterwards the scratch cell
    at what point `n − 1` left in it; the generator register rides along. -/
def PhiS (c : Dev nD) : (n : ℕ) → n ≤ cfg0.N → sProp 𝕄
  | 0, _ => Pipeline.ΦA spec0 c
  | n + 1, hn => iprop(iprop(owns (c : Thread nD τ) scM fullShare ((outsAt V c n hn).2)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2)) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2)) ∗ (∃ r, prngReg c r)) := by
  cases n with
  | zero => exact absurd rfl hz
  | succ n => rfl

/-! ## The proof data -/

/-- The region's proof data on core `c`: the arrays as the region finds them; each input's buffer at its block, the
    output's at the running pair's first component; the invariant above; the similarities' array whole, the embeddings'
    array dealt in two halves to the two windows that read it; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

end Region

end Cert.Kernel.Hand

end
-- ==== Proof.K.Body.lean ====
/-
  The body obligation of the kernel region: at every grid point the body, called on the current staging buffers,
  takes the invariant before the point to the invariant after it and leaves every window's buffer as the proof
  data say. Three cases by the point: the first, a middle one, the last.
-/
import proofs.«104046_j11570641895637_2_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their blocks; the point's number says which case it is in; the
    invariant hands the body the scratch cell at what the point before left (at anything at the first point) and takes it
    back at this point's contents; the output cell is handed back untouched away from the last point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val = 0
  · have h1 : ¬t.val = 31 := by omega
    rw [show (dat V c).leavesExact 0 t = owns (c : Thread nD τ) (ms_0 t) fullShare ((dat V c).after 0 t) from by
      unfold Dat.leavesExact; rw [liveAt_0 t], after_0]
    rw [show (dat V c).leavesExact 1 t = owns (c : Thread nD τ) (ms_1 t) fullShare ((dat V c).after 1 t) from by
      unfold Dat.leavesExact; rw [liveAt_1 t], after_1]
    rw [show (dat V c).leavesExact 2 t = owns (c : Thread nD τ) (ms_2 t) fullShare ((dat V c).after 2 t) from by
      unfold Dat.leavesExact; rw [liveAt_2 t], after_2]
    rw [Dat.leavesExact_idle (dat V c) 3 t (idleAt_3 t (fun h => h1 ((hcondLast t).mp h))) (noFlush_3 t (fun h => h1 ((hcondLast t).mp h)))]
    rw [outsAt_A V c t h0 h1]
    unfold sout_A; (try dsimp only)
    rw [PhiS_castSucc V c t, PhiS_zero V c _ _ h0, PhiA_eq]
    iintro ⟨⟨HS0, Hg⟩, Ho, ⟨%d0, H0⟩, ⟨%d1, H1⟩, ⟨%d2, H2⟩, ⟨%d3, H3⟩⟩
    iapply ((kernelRun_A c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover_A c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val = 31
    · skip
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t ((hcondLast t).mpr h1)], after_3]
      rw [outsAt_C V c t h0 h1]
      unfold out_C sout_C; (try dsimp only)
      rw [PhiS_castSucc V c t, PhiS_pos V c _ _ h0]
      iintro ⟨⟨HS0, Hg⟩, Ho, ⟨%d0, H0⟩, ⟨%d1, H1⟩, ⟨%d2, H2⟩, ⟨%d3, H3⟩⟩
      iapply ((kernelRun_C c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · skip
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3 t (fun h => h1 ((hcondLast t).mp h))) (noFlush_3 t (fun h => h1 ((hcondLast t).mp h)))]
      rw [outsAt_B V c t h0 h1]
      unfold sout_B; (try dsimp only)
      rw [PhiS_castSucc V c t, PhiS_pos V c _ _ h0]
      iintro ⟨⟨HS0, Hg⟩, Ho, ⟨%d0, H0⟩, ⟨%d1, H1⟩, ⟨%d2, H2⟩, ⟨%d3, H3⟩⟩
      iapply ((kernelRun_B c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the scratch cell's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA_eq]
  iintro ⟨HS0, Hg⟩
  isplitl [HS0]
  · iexists _; iexact HS0
  iexact Hg

end Region

end Cert.Kernel.Hand

end
-- ==== Proof.K.Split.lean ====
/-
  The region's arrays among the core's unscoped buffers when two windows read ONE array. The three distinct buffers
  behind the four windows are the similarities, the normalised embeddings and the result cell. On entry the embeddings'
  buffer, held whole, is dealt in two halves to the two windows reading it; on exit the halves are joined again, and
  the buffers are the entry contents with the result cell at what the last write-back left.
-/
import proofs.«104046_j11570641895637_2_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs unscopedRest)

section Region
variable (V : (c : Dev nD) → (b : Ref sig .tc) → Buf (Elt F) ((c : Thread nD τ).loc b))

/-- The distinct buffers behind the windows' arrays. -/
theorem image_arr : (Finset.univ.image (arrRef spec0)) = ({main_arg1, main_v4, main_v5} : Finset (Ref sig .tc)) := by decide

/-- Those buffers, each whole at contents `W`, one by one. -/
theorem arrBufs_eq (c : Dev nD) (W : (b : Ref sig .tc) → Buf (Elt F) ((c : Thread nD τ).loc b)) :
    (arrBufs spec0 c W : sProp 𝕄)
      = iprop((((c : Thread nD τ).loc main_arg1) ↦{fullShare} W main_arg1) ∗ (((c : Thread nD τ).loc main_v4) ↦{fullShare} W main_v4) ∗ (((c : Thread nD τ).loc main_v5) ↦{fullShare} W main_v5)) := by
  unfold arrBufs
  rw [image_arr, bigSep_insert (by decide), bigSep_insert (by decide), bigSep_singleton]
  rfl

/-- The four windows' holdings, one by one: the embeddings' buffer in two halves. -/
theorem arrays_eq4 (c : Dev nD) (G : (w : Fin cfg0.W) → Buf (Elt F) ((cfg0.win w).arr.view.loc (c : Thread nD τ))) :
    ((dat V c).arrays G : sProp 𝕄)
      = iprop((((c : Thread nD τ).loc main_arg1) ↦{fullShare} G 0) ∗ (((c : Thread nD τ).loc main_v4) ↦{fullShare.left} G 1) ∗ (((c : Thread nD τ).loc main_v4) ↦{fullShare.right} G 2) ∗ (((c : Thread nD τ).loc main_v5) ↦{fullShare} G 3)) := by
  unfold Dat.arrays
  rw [bigSep_W0]
  rw [(arr_whole0 0).set_eq_univ, (arr_whole0 1).set_eq_univ, (arr_whole0 3).set_eq_univ]
  rfl

/-- ENTRY: the core's unscoped buffers at `V` are the windows' holdings at the entry contents and the rest. -/
theorem entry_split (c : Dev nD) :
    (unscopedBufs c (V c) : sProp 𝕄) ⊢ iprop((dat V c).arrays ((dat V c).arrAt · 0) ∗ unscopedRest spec0 c (V c)) := by
  rw [Pipeline.unscopedBufs_split₀ cfgs 0 winFacts₀0.arr_unscoped c (V c), arrBufs_eq, arrays_eq4]
  iintro ⟨⟨H0, H4, H5⟩, Hrest⟩
  ihave H4' := (pointsTo_share (PosShare.mem_left_op_right fullShare)).1 $$ H4
  icases H4' with ⟨H4l, H4r⟩
  isplitr [Hrest]
  · isplitl [H0]; · iexact H0
    isplitl [H4l]; · iexact H4l
    isplitl [H4r]; · iexact H4r
    iexact H5
  · iexact Hrest

/-- EXIT: the windows' holdings after the last point and the rest are the core's unscoped buffers at any contents
    `V'` that has the result cell at what the write-backs leave and agrees with `V` elsewhere. -/
theorem exit_join (c : Dev nD) (V' : (b : Ref sig .tc) → Buf (Elt F) ((c : Thread nD τ).loc b))
    (h5 : V' main_v5 = (dat V c).arrAt 3 cfg0.N) (hrest : ∀ b, b ≠ main_v5 → V' b = V c b) :
    iprop((dat V c).arrays ((dat V c).arrAt · cfg0.N) ∗ unscopedRest spec0 c (V c)) ⊢ (unscopedBufs c V' : sProp 𝕄) := by
  have e0 : (dat V c).arrAt 0 cfg0.N = V' main_arg1 := ((dat V c).arrAt_in 0 rfl _).trans ((A_eq V c 0).trans (hrest main_arg1 (by decide)).symm)
  have e1 : (dat V c).arrAt 1 cfg0.N = V' main_v4 := ((dat V c).arrAt_in 1 rfl _).trans ((A_eq V c 1).trans (hrest main_v4 (by decide)).symm)
  have e2 : (dat V c).arrAt 2 cfg0.N = V' main_v4 := ((dat V c).arrAt_in 2 rfl _).trans ((A_eq V c 2).trans (hrest main_v4 (by decide)).symm)
  have er : (unscopedRest spec0 c (V c) : sProp 𝕄) = unscopedRest spec0 c V' := by
    unfold unscopedRest
    refine bigSep_congr fun b hb => ?_
    rw [hrest b (fun e => (Finset.mem_sdiff.mp hb).2 (by rw [e]; decide))]
  rw [Pipeline.unscopedBufs_split₀ cfgs 0 winFacts₀0.arr_unscoped c V', arrBufs_eq, arrays_eq4, e0, e1, e2, ← h5, er]
  iintro ⟨⟨H0, H4l, H4r, H5⟩, Hrest⟩
  isplitr [Hrest]
  · isplitl [H0]; · iexact H0
    isplitr [H5]
    · iapply (pointsTo_share (PosShare.mem_left_op_right fullShare)).2
      isplitl [H4l]; · iexact H4l
      iexact H4r
    iexact H5
  · iexact Hrest

end Region

end Cert.Kernel.Hand

end
-- ==== Proof.K.Main.lean ====
/-
  The whole program's run: two stretches of host operations (the row norms; the clamped division that normalises the
  embeddings), the kernel region, and one host operation after it (the 1 × 1 result read as a scalar). The contents of
  every unscoped buffer are followed from the launch through each boundary; at the end every such buffer holds the last
  boundary's contents.
-/
import proofs.«104046_j11570641895637_2_alg».proof.Proof.K.Body
import proofs.«104046_j11570641895637_2_alg».proof.Proof.K.Split

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the row norms. -/
abbrev W1 : Dev nD → Valuation τ sig (Elt F) := fun c => StableHlo.after hostOps0 (W0 m ρ c)
/-- After the normalisation: the region's entry. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
open Classical in
/-- At the region's exit: the result cell at what the write-backs leave, every other buffer as entered. -/
def W3 (c : Dev nD) : Valuation τ sig (Elt F) :=
  Function.update (W2 m ρ c) (Proc.devRef .tc main_v5) ((dat (V2 m ρ) c).arrAt 3 cfg0.N)
abbrev V3 : (c : Dev nD) → (b : Ref sig .tc) → Buf (Elt F) ((c : Thread nD τ).loc b) := fun c b => W3 m ρ c b
/-- After the last host operation. -/
abbrev W4 : Dev nD → Valuation τ sig (Elt F) := fun c => StableHlo.after hostOps1 (W3 m ρ c)

theorem W3_v5 (c : Dev nD) : V3 m ρ c main_v5 = (dat (V2 m ρ) c).arrAt 3 cfg0.N := by
  show W3 m ρ c (Proc.devRef .tc main_v5) = _
  unfold W3; exact Function.update_self ..
theorem W3_rest (c : Dev nD) (b : Ref sig .tc) (hb : b ≠ main_v5) : V3 m ρ c b = V2 m ρ c b := by
  show W3 m ρ c (Proc.devRef .tc b) = W2 m ρ c (Proc.devRef .tc b)
  unfold W3; exact Function.update_of_ne (fun e => hb (Proc.devRef_injective _ e)) ..

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The region as a segment -/

set_option backward.isDefEq.respectTransparency.types false in
/-- The kernel region over the thread state: entered from every unscoped buffer at the entry contents, left at the exit
    contents. Its arrays are split out of the unscoped buffers (the shared one in halves) and put back; the generator
    register goes into the invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := entry_split (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin (V2 m ρ) c)
    unfold Pipeline.ΦA
    iintro ⟨Hp, -, Hr⟩
    isplitl [Hr]; · iexact Hr
    iexact Hp
  hout c := by
    rw [Pipeline.ownSems0_none]
    refine (hout (V2 m ρ) c).trans ?_
    unfold Pipeline.ΦA
    iintro ⟨Hr, Hp⟩
    isplitl [Hp]; · iexact Hp
    isplitr; · iempintro
    iexact Hr
  hexit c := by
    have hjoin := exit_join (V2 m ρ) c (V3 m ρ c) (W3_v5 m ρ c) (W3_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and at
    the end every unscoped buffer holds the last boundary's contents. -/
theorem run_main : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_rest m ρ c main_arg0 (by decide)
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_rest m ρ c main_arg1 (by decide)
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The frame: the program runs to the end, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 (by decide)).trans (W4_main_arg0 m ρ c), (h c main_arg1 (by decide)).trans (W4_main_arg1 m ρ c)⟩) (run_main m ρ)

end Cert.Kernel.Hand

end
-- ==== Proof.KI.Runs.lean ====
/-
  What the three control cases of the kernel body share: the two branch conditions in closed form over the
  8 × 4 grid (the first point zeroes the running sum, the last point writes the scaled sum out), where the
  output window is idle, and names for the staging and scratch memrefs the body is called with.
-/
import proofs.«104046_j11570641895637_2_alg».proof.Proof.Gen.KernelIdeal.Launch
import proofs.«104046_j11570641895637_2_alg».proof.Proof.Gen.KernelIdeal.Skeleton
import proofs.«104046_j11570641895637_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The body zeroes the running sum exactly when both grid coordinates are 0. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is point 0 of the 32 points. -/
theorem hcondFirst : ∀ t : Fin cfg0.N, condFirst (grid0.coords t) ↔ t.val = 0 :=
  (by decide +kernel : ∀ t : Fin grid0.N, condFirst (grid0.coords t) ↔ t.val = 0)

/-- The body writes the result out exactly when the coordinates are (7, 3). -/
abbrev condLast (i : grid0.Coords) : Prop := k0_cond2 i = 1#1
/-- That is point 31. -/
theorem hcondLast : ∀ t : Fin cfg0.N, condLast (grid0.coords t) ↔ t.val = 31 :=
  (by decide +kernel : ∀ t : Fin grid0.N, condLast (grid0.coords t) ↔ t.val = 31)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
/-- Away from the last point the body stores nothing into the output window, and the pipeline does not write it back. -/
theorem idleAt_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel
/-- At the last point it is live. -/
theorem liveAt_3 : ∀ t : Fin cfg0.N, condLast (grid0.coords t) → cfg0.idle 3 (grid0.coords t) = false := by decide +kernel

/-! ## The memrefs the body is called with -/

abbrev VO : View sig .tc .vmem S1x1 .f32 := (Memref.whole cc0_stg3_0 : Memref sig .tc .vmem S1x1 .f32).view
abbrev ms_0 (t : Fin cfg0.N) : Memref sig .tc .vmem S1024x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1 .f32 := win0_3.stage (cfg0.slots t 3)
abbrev hs_3 (t : Fin cfg0.N) : (ms_3 t).IsWhole := hstage0_3 ((cfg0.slots t 3).cast nbuf0_3)
/-- The scratch cell holding the running sum between grid points. -/
abbrev scM : Memref sig .tc .vmem S1x1 .f32 := Memref.whole cc0_scratch0
abbrev VS : View sig .tc .vmem S1x1 .f32 := scM.view

/-- The scoped rest of the launch is the scratch cell at some contents, beside the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.RunA.lean ====
/-
  The body at the first grid point: it zeroes the running sum, then proceeds as at a middle point; the output
  window is untouched.
-/
import proofs.«104046_j11570641895637_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the scratch cell (last first: the updated sum, then the zero), with the body's triple:
    the scratch cell may hold anything on entry. -/
noncomputable def kernelRun_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S1024x2048 .f32) (x1 : Vec F S1024x256 .f32) (x2 : Vec F S2048x256 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.RunB.lean ====
/-
  The body at a middle grid point (neither first nor last): it loads the three input blocks and the running sum,
  and stores the running sum plus the tile's sum back into the scratch cell; the output window is untouched.
-/
import proofs.«104046_j11570641895637_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the scratch cell (last first), with the body's triple: from whole memrefs holding the
    three blocks, the untouched output cell and the running sum, to the same with the scratch cell rewritten. -/
noncomputable def kernelRun_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S1024x2048 .f32) (x1 : Vec F S1024x256 .f32) (x2 : Vec F S2048x256 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨[], ?_, fun xi3 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.RunC.lean ====
/-
  The body at the last grid point: as at a middle point, and then the running sum, scaled and divided, is stored
  into the output cell.
-/
import proofs.«104046_j11570641895637_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output cell and in the scratch cell (last first), with the body's triple: the
    output cell may hold anything on entry. -/
noncomputable def kernelRun_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S1024x2048 .f32) (x1 : Vec F S1024x256 .f32) (x2 : Vec F S2048x256 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Frame.lean ====
/-
  The kernel region's proof data and body obligation, at any contents `V` of the buffers when the region is entered.
  The scratch cell carries the running sum from grid point to grid point: after point `n` it holds what the case
  of that point computes from the three blocks at the point and from what point `n − 1` left. The output cell is
  stored at the last point only. The two embedding windows read one array; each holds half of it.
-/
import proofs.«104046_j11570641895637_2_alg».proof.Proof.KI.RunA
import proofs.«104046_j11570641895637_2_alg».proof.Proof.KI.RunB
import proofs.«104046_j11570641895637_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Region

/-! ## What each case leaves -/

/-- What case A leaves in the output cell: its pieces read back (none but at the last point). -/
def out_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i) (x0 : Vec F S1024x2048 .f32) (x1 : Vec F S1024x256 .f32) (x2 : Vec F S2048x256 .f32) : Vec F S1x1 .f32 :=
  VO.read (Elt F) (VO.writes (Elt F) VO.junk (kernelRun_A c i arg2 harg2 arg3 harg3 arg4 harg4 arg5 harg5 arg6 harg6 hc0 hc1 x0 x1 x2).1)
/-- Case A's stores into the scratch cell cover it. -/
theorem scover_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i) (x0 : Vec F S1024x2048 .f32) (x1 : Vec F S1024x256 .f32) (x2 : Vec F S2048x256 .f32) (y : S1x1.Idx) :
    ∃ pc ∈ (kernelRun_A c i arg2 harg2 arg3 harg3 arg4 harg4 arg5 harg5 arg6 harg6 hc0 hc1 x0 x1 x2).2.1, y ∈ pc.1.set :=
  View.cover_of_tiledL (kernelRun_A c i arg2 harg2 arg3 harg3 arg4 harg4 arg5 harg5 arg6 harg6 hc0 hc1 x0 x1 x2).2.1 S1x1.size (by sl_kernel_rfl) y
/-- What case A leaves in the scratch cell: the running sum after the point. -/
def sout_A (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i) (x0 : Vec F S1024x2048 .f32) (x1 : Vec F S1024x256 .f32) (x2 : Vec F S2048x256 .f32) : Vec F S1x1 .f32 :=
  VS.read (Elt F) (VS.writes (Elt F) VS.junk (kernelRun_A c i arg2 harg2 arg3 harg3 arg4 harg4 arg5 harg5 arg6 harg6 hc0 hc1 x0 x1 x2).2.1)

/-- What case B leaves in the output cell: its pieces read back (none but at the last point). -/
def out_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i) (x0 : Vec F S1024x2048 .f32) (x1 : Vec F S1024x256 .f32) (x2 : Vec F S2048x256 .f32) (xs0 : Vec F S1x1 .f32) : Vec F S1x1 .f32 :=
  VO.read (Elt F) (VO.writes (Elt F) VO.junk (kernelRun_B c i arg2 harg2 arg3 harg3 arg4 harg4 arg5 harg5 arg6 harg6 hc0 hc1 x0 x1 x2 xs0).1)
/-- Case B's stores into the scratch cell cover it. -/
theorem scover_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i) (x0 : Vec F S1024x2048 .f32) (x1 : Vec F S1024x256 .f32) (x2 : Vec F S2048x256 .f32) (xs0 : Vec F S1x1 .f32) (y : S1x1.Idx) :
    ∃ pc ∈ (kernelRun_B c i arg2 harg2 arg3 harg3 arg4 harg4 arg5 harg5 arg6 harg6 hc0 hc1 x0 x1 x2 xs0).2.1, y ∈ pc.1.set :=
  View.cover_of_tiledL (kernelRun_B c i arg2 harg2 arg3 harg3 arg4 harg4 arg5 harg5 arg6 harg6 hc0 hc1 x0 x1 x2 xs0).2.1 S1x1.size (by sl_kernel_rfl) y
/-- What case B leaves in the scratch cell: the running sum after the point. -/
def sout_B (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i) (x0 : Vec F S1024x2048 .f32) (x1 : Vec F S1024x256 .f32) (x2 : Vec F S2048x256 .f32) (xs0 : Vec F S1x1 .f32) : Vec F S1x1 .f32 :=
  VS.read (Elt F) (VS.writes (Elt F) VS.junk (kernelRun_B c i arg2 harg2 arg3 harg3 arg4 harg4 arg5 harg5 arg6 harg6 hc0 hc1 x0 x1 x2 xs0).2.1)

/-- What case C leaves in the output cell: its pieces read back (none but at the last point). -/
def out_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i) (x0 : Vec F S1024x2048 .f32) (x1 : Vec F S1024x256 .f32) (x2 : Vec F S2048x256 .f32) (xs0 : Vec F S1x1 .f32) : Vec F S1x1 .f32 :=
  VO.read (Elt F) (VO.writes (Elt F) VO.junk (kernelRun_C c i arg2 harg2 arg3 harg3 arg4 harg4 arg5 harg5 arg6 harg6 hc0 hc1 x0 x1 x2 xs0).1)
/-- Case C's stores into the scratch cell cover it. -/
theorem scover_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i) (x0 : Vec F S1024x2048 .f32) (x1 : Vec F S1024x256 .f32) (x2 : Vec F S2048x256 .f32) (xs0 : Vec F S1x1 .f32) (y : S1x1.Idx) :
    ∃ pc ∈ (kernelRun_C c i arg2 harg2 arg3 harg3 arg4 harg4 arg5 harg5 arg6 harg6 hc0 hc1 x0 x1 x2 xs0).2.1, y ∈ pc.1.set :=
  View.cover_of_tiledL (kernelRun_C c i arg2 harg2 arg3 harg3 arg4 harg4 arg5 harg5 arg6 harg6 hc0 hc1 x0 x1 x2 xs0).2.1 S1x1.size (by sl_kernel_rfl) y
/-- What case C leaves in the scratch cell: the running sum after the point. -/
def sout_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i) (x0 : Vec F S1024x2048 .f32) (x1 : Vec F S1024x256 .f32) (x2 : Vec F S2048x256 .f32) (xs0 : Vec F S1x1 .f32) : Vec F S1x1 .f32 :=
  VS.read (Elt F) (VS.writes (Elt F) VS.junk (kernelRun_C c i arg2 harg2 arg3 harg3 arg4 harg4 arg5 harg5 arg6 harg6 hc0 hc1 x0 x1 x2 xs0).2.1)

/-- At the last point the store into the output cell covers it. -/
theorem cover_C (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i) (x0 : Vec F S1024x2048 .f32) (x1 : Vec F S1024x256 .f32) (x2 : Vec F S2048x256 .f32) (xs0 : Vec F S1x1 .f32) (y : S1x1.Idx) :
    ∃ pc ∈ (kernelRun_C c i arg2 harg2 arg3 harg3 arg4 harg4 arg5 harg5 arg6 harg6 hc0 hc1 x0 x1 x2 xs0).1, y ∈ pc.1.set :=
  View.cover_of_tiledL (kernelRun_C c i arg2 harg2 arg3 harg3 arg4 harg4 arg5 harg5 arg6 harg6 hc0 hc1 x0 x1 x2 xs0).1 S1x1.size (by sl_kernel_rfl) y

section Region
variable (V : (c : Dev nD) → (b : Ref sig .tc) → Buf (Elt F) ((c : Thread nD τ).loc b))

/-! ## The running contents, point by point -/

/-- What the output cell and the scratch cell hold after the body at point `n` (a pair: output, scratch): the
    case of the point, run on the point's blocks and on what the point before left in the scratch cell. -/
def outsAt (c : Dev nD) : (n : ℕ) → n < cfg0.N → Vec F S1x1 .f32 × Vec F S1x1 .f32
  | 0, hn =>
    (out_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr rfl) (fun h => absurd (show (0 : ℕ) = 31 from (hcondLast ⟨0, hn⟩).mp h) (by decide)) (iblk V c 0 ⟨0, hn⟩) (iblk V c 1 ⟨0, hn⟩) (iblk V c 2 ⟨0, hn⟩),
     sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr rfl) (fun h => absurd (show (0 : ℕ) = 31 from (hcondLast ⟨0, hn⟩).mp h) (by decide)) (iblk V c 0 ⟨0, hn⟩) (iblk V c 1 ⟨0, hn⟩) (iblk V c 2 ⟨0, hn⟩))
  | n + 1, hn =>
    if h1 : n + 1 = 31 then
      (out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => Nat.succ_ne_zero n ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
       sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => Nat.succ_ne_zero n ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
    else
      (out_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => Nat.succ_ne_zero n ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2,
       sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => Nat.succ_ne_zero n ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

/-- At the first point: the first case's contents. -/
theorem outsAt_A (c : Dev nD) (t : Fin cfg0.N) (h0 : t.val = 0) (h1 : ¬t.val = 31) :
    outsAt V c t.val t.isLt = (out_A c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t), sout_A c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact absurd h0 (Nat.succ_ne_zero n)

/-- At a middle point: the middle case's contents, over what the point before left. -/
theorem outsAt_B (c : Dev nD) (t : Fin cfg0.N) (h0 : ¬t.val = 0) (h1 : ¬t.val = 31) :
    outsAt V c t.val t.isLt = (out_B c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2, sout_B c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact absurd rfl h0
  | succ n => exact (dif_neg h1).trans rfl

/-- At the last point: the last case's contents, over what the point before left. -/
theorem outsAt_C (c : Dev nD) (t : Fin cfg0.N) (h0 : ¬t.val = 0) (h1 : t.val = 31) :
    outsAt V c t.val t.isLt = (out_C c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2, sout_C c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the scratch cell at the running sum -/

/-- Before point `n`: at the start the launch's scoped rest (the scratch cell at anything); afterwards the scratch cell
    at what point `n − 1` left in it; the generator register rides along. -/
def PhiS (c : Dev nD) : (n : ℕ) → n ≤ cfg0.N → sProp 𝕄
  | 0, _ => Pipeline.ΦA spec0 c
  | n + 1, hn => iprop(iprop(owns (c : Thread nD τ) scM fullShare ((outsAt V c n hn).2)) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2)) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2)) ∗ (∃ r, prngReg c r)) := by
  cases n with
  | zero => exact absurd rfl hz
  | succ n => rfl

/-! ## The proof data -/

/-- The region's proof data on core `c`: the arrays as the region finds them; each input's buffer at its block, the
    output's at the running pair's first component; the invariant above; the similarities' array whole, the embeddings'
    array dealt in two halves to the two windows that read it; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

end Region

end Cert.KernelIdeal.Hand

end
-- ==== Proof.KI.Body.lean ====
/-
  The body obligation of the kernel region: at every grid point the body, called on the current staging buffers,
  takes the invariant before the point to the invariant after it and leaves every window's buffer as the proof
  data say. Three cases by the point: the first, a middle one, the last.
-/
import proofs.«104046_j11570641895637_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their blocks; the point's number says which case it is in; the
    invariant hands the body the scratch cell at what the point before left (at anything at the first point) and takes it
    back at this point's contents; the output cell is handed back untouched away from the last point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val = 0
  · have h1 : ¬t.val = 31 := by omega
    rw [show (dat V c).leavesExact 0 t = owns (c : Thread nD τ) (ms_0 t) fullShare ((dat V c).after 0 t) from by
      unfold Dat.leavesExact; rw [liveAt_0 t], after_0]
    rw [show (dat V c).leavesExact 1 t = owns (c : Thread nD τ) (ms_1 t) fullShare ((dat V c).after 1 t) from by
      unfold Dat.leavesExact; rw [liveAt_1 t], after_1]
    rw [show (dat V c).leavesExact 2 t = owns (c : Thread nD τ) (ms_2 t) fullShare ((dat V c).after 2 t) from by
      unfold Dat.leavesExact; rw [liveAt_2 t], after_2]
    rw [Dat.leavesExact_idle (dat V c) 3 t (idleAt_3 t (fun h => h1 ((hcondLast t).mp h))) (noFlush_3 t (fun h => h1 ((hcondLast t).mp h)))]
    rw [outsAt_A V c t h0 h1]
    unfold sout_A; (try dsimp only)
    rw [PhiS_castSucc V c t, PhiS_zero V c _ _ h0, PhiA_eq]
    iintro ⟨⟨HS0, Hg⟩, Ho, ⟨%d0, H0⟩, ⟨%d1, H1⟩, ⟨%d2, H2⟩, ⟨%d3, H3⟩⟩
    iapply ((kernelRun_A c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover_A c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val = 31
    · skip
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t ((hcondLast t).mpr h1)], after_3]
      rw [outsAt_C V c t h0 h1]
      unfold out_C sout_C; (try dsimp only)
      rw [PhiS_castSucc V c t, PhiS_pos V c _ _ h0]
      iintro ⟨⟨HS0, Hg⟩, Ho, ⟨%d0, H0⟩, ⟨%d1, H1⟩, ⟨%d2, H2⟩, ⟨%d3, H3⟩⟩
      iapply ((kernelRun_C c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · skip
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3 t (fun h => h1 ((hcondLast t).mp h))) (noFlush_3 t (fun h => h1 ((hcondLast t).mp h)))]
      rw [outsAt_B V c t h0 h1]
      unfold sout_B; (try dsimp only)
      rw [PhiS_castSucc V c t, PhiS_pos V c _ _ h0]
      iintro ⟨⟨HS0, Hg⟩, Ho, ⟨%d0, H0⟩, ⟨%d1, H1⟩, ⟨%d2, H2⟩, ⟨%d3, H3⟩⟩
      iapply ((kernelRun_B c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest back: the scratch cell's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA_eq]
  iintro ⟨HS0, Hg⟩
  isplitl [HS0]
  · iexists _; iexact HS0
  iexact Hg

end Region

end Cert.KernelIdeal.Hand

end
-- ==== Proof.KI.Split.lean ====
/-
  The region's arrays among the core's unscoped buffers when two windows read ONE array. The three distinct buffers
  behind the four windows are the similarities, the normalised embeddings and the result cell. On entry the embeddings'
  buffer, held whole, is dealt in two halves to the two windows reading it; on exit the halves are joined again, and
  the buffers are the entry contents with the result cell at what the last write-back left.
-/
import proofs.«104046_j11570641895637_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs unscopedRest)

section Region
variable (V : (c : Dev nD) → (b : Ref sig .tc) → Buf (Elt F) ((c : Thread nD τ).loc b))

/-- The distinct buffers behind the windows' arrays. -/
theorem image_arr : (Finset.univ.image (arrRef spec0)) = ({main_arg1, main_v4, main_v5} : Finset (Ref sig .tc)) := by decide

/-- Those buffers, each whole at contents `W`, one by one. -/
theorem arrBufs_eq (c : Dev nD) (W : (b : Ref sig .tc) → Buf (Elt F) ((c : Thread nD τ).loc b)) :
    (arrBufs spec0 c W : sProp 𝕄)
      = iprop((((c : Thread nD τ).loc main_arg1) ↦{fullShare} W main_arg1) ∗ (((c : Thread nD τ).loc main_v4) ↦{fullShare} W main_v4) ∗ (((c : Thread nD τ).loc main_v5) ↦{fullShare} W main_v5)) := by
  unfold arrBufs
  rw [image_arr, bigSep_insert (by decide), bigSep_insert (by decide), bigSep_singleton]
  rfl

/-- The four windows' holdings, one by one: the embeddings' buffer in two halves. -/
theorem arrays_eq4 (c : Dev nD) (G : (w : Fin cfg0.W) → Buf (Elt F) ((cfg0.win w).arr.view.loc (c : Thread nD τ))) :
    ((dat V c).arrays G : sProp 𝕄)
      = iprop((((c : Thread nD τ).loc main_arg1) ↦{fullShare} G 0) ∗ (((c : Thread nD τ).loc main_v4) ↦{fullShare.left} G 1) ∗ (((c : Thread nD τ).loc main_v4) ↦{fullShare.right} G 2) ∗ (((c : Thread nD τ).loc main_v5) ↦{fullShare} G 3)) := by
  unfold Dat.arrays
  rw [bigSep_W0]
  rw [(arr_whole0 0).set_eq_univ, (arr_whole0 1).set_eq_univ, (arr_whole0 3).set_eq_univ]
  rfl

/-- ENTRY: the core's unscoped buffers at `V` are the windows' holdings at the entry contents and the rest. -/
theorem entry_split (c : Dev nD) :
    (unscopedBufs c (V c) : sProp 𝕄) ⊢ iprop((dat V c).arrays ((dat V c).arrAt · 0) ∗ unscopedRest spec0 c (V c)) := by
  rw [Pipeline.unscopedBufs_split₀ cfgs 0 winFacts₀0.arr_unscoped c (V c), arrBufs_eq, arrays_eq4]
  iintro ⟨⟨H0, H4, H5⟩, Hrest⟩
  ihave H4' := (pointsTo_share (PosShare.mem_left_op_right fullShare)).1 $$ H4
  icases H4' with ⟨H4l, H4r⟩
  isplitr [Hrest]
  · isplitl [H0]; · iexact H0
    isplitl [H4l]; · iexact H4l
    isplitl [H4r]; · iexact H4r
    iexact H5
  · iexact Hrest

/-- EXIT: the windows' holdings after the last point and the rest are the core's unscoped buffers at any contents
    `V'` that has the result cell at what the write-backs leave and agrees with `V` elsewhere. -/
theorem exit_join (c : Dev nD) (V' : (b : Ref sig .tc) → Buf (Elt F) ((c : Thread nD τ).loc b))
    (h5 : V' main_v5 = (dat V c).arrAt 3 cfg0.N) (hrest : ∀ b, b ≠ main_v5 → V' b = V c b) :
    iprop((dat V c).arrays ((dat V c).arrAt · cfg0.N) ∗ unscopedRest spec0 c (V c)) ⊢ (unscopedBufs c V' : sProp 𝕄) := by
  have e0 : (dat V c).arrAt 0 cfg0.N = V' main_arg1 := ((dat V c).arrAt_in 0 rfl _).trans ((A_eq V c 0).trans (hrest main_arg1 (by decide)).symm)
  have e1 : (dat V c).arrAt 1 cfg0.N = V' main_v4 := ((dat V c).arrAt_in 1 rfl _).trans ((A_eq V c 1).trans (hrest main_v4 (by decide)).symm)
  have e2 : (dat V c).arrAt 2 cfg0.N = V' main_v4 := ((dat V c).arrAt_in 2 rfl _).trans ((A_eq V c 2).trans (hrest main_v4 (by decide)).symm)
  have er : (unscopedRest spec0 c (V c) : sProp 𝕄) = unscopedRest spec0 c V' := by
    unfold unscopedRest
    refine bigSep_congr fun b hb => ?_
    rw [hrest b (fun e => (Finset.mem_sdiff.mp hb).2 (by rw [e]; decide))]
  rw [Pipeline.unscopedBufs_split₀ cfgs 0 winFacts₀0.arr_unscoped c V', arrBufs_eq, arrays_eq4, e0, e1, e2, ← h5, er]
  iintro ⟨⟨H0, H4l, H4r, H5⟩, Hrest⟩
  isplitr [Hrest]
  · isplitl [H0]; · iexact H0
    isplitr [H5]
    · iapply (pointsTo_share (PosShare.mem_left_op_right fullShare)).2
      isplitl [H4l]; · iexact H4l
      iexact H4r
    iexact H5
  · iexact Hrest

end Region

end Cert.KernelIdeal.Hand

end
-- ==== Proof.KI.Main.lean ====
/-
  The whole program's run: two stretches of host operations (the row norms; the clamped division that normalises the
  embeddings), the kernel region, and one host operation after it (the 1 × 1 result read as a scalar). The contents of
  every unscoped buffer are followed from the launch through each boundary; at the end every such buffer holds the last
  boundary's contents.
-/
import proofs.«104046_j11570641895637_2_alg».proof.Proof.KI.Body
import proofs.«104046_j11570641895637_2_alg».proof.Proof.KI.Split

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the row norms. -/
abbrev W1 : Dev nD → Valuation τ sig (Elt F) := fun c => StableHlo.after hostOps0 (W0 m ρ c)
/-- After the normalisation: the region's entry. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
open Classical in
/-- At the region's exit: the result cell at what the write-backs leave, every other buffer as entered. -/
def W3 (c : Dev nD) : Valuation τ sig (Elt F) :=
  Function.update (W2 m ρ c) (Proc.devRef .tc main_v5) ((dat (V2 m ρ) c).arrAt 3 cfg0.N)
abbrev V3 : (c : Dev nD) → (b : Ref sig .tc) → Buf (Elt F) ((c : Thread nD τ).loc b) := fun c b => W3 m ρ c b
/-- After the last host operation. -/
abbrev W4 : Dev nD → Valuation τ sig (Elt F) := fun c => StableHlo.after hostOps1 (W3 m ρ c)

theorem W3_v5 (c : Dev nD) : V3 m ρ c main_v5 = (dat (V2 m ρ) c).arrAt 3 cfg0.N := by
  show W3 m ρ c (Proc.devRef .tc main_v5) = _
  unfold W3; exact Function.update_self ..
theorem W3_rest (c : Dev nD) (b : Ref sig .tc) (hb : b ≠ main_v5) : V3 m ρ c b = V2 m ρ c b := by
  show W3 m ρ c (Proc.devRef .tc b) = W2 m ρ c (Proc.devRef .tc b)
  unfold W3; exact Function.update_of_ne (fun e => hb (Proc.devRef_injective _ e)) ..

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The region as a segment -/

set_option backward.isDefEq.respectTransparency.types false in
/-- The kernel region over the thread state: entered from every unscoped buffer at the entry contents, left at the exit
    contents. Its arrays are split out of the unscoped buffers (the shared one in halves) and put back; the generator
    register goes into the invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := entry_split (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin (V2 m ρ) c)
    unfold Pipeline.ΦA
    iintro ⟨Hp, -, Hr⟩
    isplitl [Hr]; · iexact Hr
    iexact Hp
  hout c := by
    rw [Pipeline.ownSems0_none]
    refine (hout (V2 m ρ) c).trans ?_
    unfold Pipeline.ΦA
    iintro ⟨Hr, Hp⟩
    isplitl [Hp]; · iexact Hp
    isplitr; · iempintro
    iexact Hr
  hexit c := by
    have hjoin := exit_join (V2 m ρ) c (V3 m ρ c) (W3_v5 m ρ c) (W3_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and at
    the end every unscoped buffer holds the last boundary's contents. -/
theorem run_main : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_rest m ρ c main_arg0 (by decide)
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_rest m ρ c main_arg1 (by decide)
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The frame: the program runs to the end, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0 (by decide)).trans (W4_main_arg0 m ρ c), (h c main_arg1 (by decide)).trans (W4_main_arg1 m ρ c)⟩) (run_main m ρ)

end Cert.KernelIdeal.Hand

end
-- ==== Proof.KI.Pieces.lean ====
/-
  What each case of the kernel body leaves in the scratch cell and in the output cell, as values: every store
  covers its cell from offset zero, so the cell ends at the last store's payload, and every load reads a whole
  buffer, so each payload is taken at the buffers' contents themselves.
-/
import proofs.«104046_j11570641895637_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two zero offsets of a whole-buffer access. -/
theorem hz2 : (![0, 0] : Fin 2 → Nat) = fun _ => 0 := funext fun a => by fin_cases a <;> rfl

/-- A middle point leaves, in the scratch cell holding `xs0`, the tile step of the three blocks over `xs0`. -/
theorem sout_B_eq (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i) (x0 : Vec F S1024x2048 .f32) (x1 : Vec F S1024x256 .f32) (x2 : Vec F S2048x256 .f32) (xs0 : Vec F S1x1 .f32) :
    sout_B c i arg2 harg2 arg3 harg3 arg4 harg4 arg5 harg5 arg6 harg6 hc0 hc1 x0 x1 x2 xs0 = k0_pay3 i x1 x2 x0 xs0 := by
  unfold sout_B
  rw [View.read_writes_eq_canon _ _ _ (scover_B c i arg2 harg2 arg3 harg3 arg4 harg4 arg5 harg5 arg6 harg6 hc0 hc1 x0 x1 x2 xs0)]
  unfold kernelRun_B
  dsimp only
  sl_unfold_words
  rw [View.canon_unit_zero hz2]
  simp only [View.readAt_eq_ld, harg2.read_unread, harg3.read_unread, harg4.read_unread, harg6.read_unread,
    View.ld_unit_zero (S := S1024x2048) hz2, View.ld_unit_zero (S := S1024x256) hz2,
    View.ld_unit_zero (S := S2048x256) hz2, View.ld_unit_zero (S := S1x1) hz2]

/-- The first point zeroes the scratch cell, reads the zero back, and leaves the tile step over it. -/
theorem sout_A_eq (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i) (x0 : Vec F S1024x2048 .f32) (x1 : Vec F S1024x256 .f32) (x2 : Vec F S2048x256 .f32) :
    sout_A c i arg2 harg2 arg3 harg3 arg4 harg4 arg5 harg5 arg6 harg6 hc0 hc1 x0 x1 x2 = k0_pay3 i x1 x2 x0 k0_pay2 := by
  unfold sout_A
  rw [View.read_writes_eq_canon _ _ _ (scover_A c i arg2 harg2 arg3 harg3 arg4 harg4 arg5 harg5 arg6 harg6 hc0 hc1 x0 x1 x2)]
  unfold kernelRun_A
  dsimp only
  sl_unfold_words
  rw [View.canon_cons_unit_zero (S := S1x1) hz2, View.readCov_unit_zero (S := S1x1) _ hz2]
  simp only [View.readAt_eq_ld, harg2.read_unread, harg3.read_unread, harg4.read_unread, harg6.read_unread,
    View.ld_unit_zero (S := S1024x2048) hz2, View.ld_unit_zero (S := S1024x256) hz2,
    View.ld_unit_zero (S := S2048x256) hz2, View.ld_unit_zero (S := S1x1) hz2]

/-- The last point leaves the same tile step in the scratch cell. -/
theorem sout_C_eq (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i) (x0 : Vec F S1024x2048 .f32) (x1 : Vec F S1024x256 .f32) (x2 : Vec F S2048x256 .f32) (xs0 : Vec F S1x1 .f32) :
    sout_C c i arg2 harg2 arg3 harg3 arg4 harg4 arg5 harg5 arg6 harg6 hc0 hc1 x0 x1 x2 xs0 = k0_pay3 i x1 x2 x0 xs0 := by
  unfold sout_C
  rw [View.read_writes_eq_canon _ _ _ (scover_C c i arg2 harg2 arg3 harg3 arg4 harg4 arg5 harg5 arg6 harg6 hc0 hc1 x0 x1 x2 xs0)]
  unfold kernelRun_C
  dsimp only
  sl_unfold_words
  rw [View.canon_unit_zero hz2]
  simp only [View.readAt_eq_ld, harg2.read_unread, harg3.read_unread, harg4.read_unread, harg6.read_unread,
    View.ld_unit_zero (S := S1024x2048) hz2, View.ld_unit_zero (S := S1024x256) hz2,
    View.ld_unit_zero (S := S2048x256) hz2, View.ld_unit_zero (S := S1x1) hz2]

/-- The last point reads the new running sum back and leaves it, scaled and divided, in the output cell. -/
theorem out_C_eq (c : Dev nD) (i : grid0.Coords) (arg2 : Memref sig .tc .vmem S1024x2048 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i) (x0 : Vec F S1024x2048 .f32) (x1 : Vec F S1024x256 .f32) (x2 : Vec F S2048x256 .f32) (xs0 : Vec F S1x1 .f32) :
    out_C c i arg2 harg2 arg3 harg3 arg4 harg4 arg5 harg5 arg6 harg6 hc0 hc1 x0 x1 x2 xs0 = k0_pay1 (k0_pay3 i x1 x2 x0 xs0) := by
  unfold out_C
  rw [View.read_writes_eq_canon _ _ _ (cover_C c i arg2 harg2 arg3 harg3 arg4 harg4 arg5 harg5 arg6 harg6 hc0 hc1 x0 x1 x2 xs0)]
  unfold kernelRun_C
  dsimp only
  sl_unfold_words
  rw [View.canon_unit_zero hz2, View.readCov_unit_zero (S := S1x1) _ hz2]
  simp only [View.readAt_eq_ld, harg2.read_unread, harg3.read_unread, harg4.read_unread, harg6.read_unread,
    View.ld_unit_zero (S := S1024x2048) hz2, View.ld_unit_zero (S := S1024x256) hz2,
    View.ld_unit_zero (S := S2048x256) hz2, View.ld_unit_zero (S := S1x1) hz2]

end Cert.KernelIdeal.Hand

end
-- ==== Proof.Spec.lean ====
/-
  The quantity both programs compute, over the extended reals.

  For similarities `ts` (8192 × 8192) and row-normalised embeddings `en` (8192 × 256) the masked difference
  matrix has entry (r, s) equal to |ts(r, s) − ⟨en r, en s⟩| when r < s and 0 otherwise. The loss is the sum of
  all its entries, scaled by 0.1 (as a binary32 value) and divided by the number of pairs 8192 · 8191 / 2.
  The sum is taken tile by tile: the matrix is cut into 8 × 4 tiles of 1024 × 2048 entries, visited row-major,
  each tile summed along its rows first, the tile sums added into a running sum that starts at 0.
-/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-- Indices of the embeddings and of the similarity matrix. -/
abbrev EIdx := (⟨2, ![8192, 256]⟩ : Shape).Idx
abbrev TIdx := (⟨2, ![8192, 8192]⟩ : Shape).Idx

/-- One masked absolute difference: |t − c| when row `r` is strictly above the diagonal entry `s`, else 0
    (the absolute value as the larger of a number and its negative). -/
def term (t c : EReal) (r s : ℕ) : EReal :=
  max (t - c) (-(t - c)) * (if r < s then (1 : EReal) else 0)

/-- The inner product of rows `r` and `s` of the embeddings. -/
def cosAt (en : EIdx → EReal) (r s : Fin 8192) : EReal :=
  ∑ k : Fin 256, en (ix2 r k) * en (ix2 s k)

/-- Entry (r, s) of the masked difference matrix. -/
def entry (ts : TIdx → EReal) (en : EIdx → EReal) (r s : Fin 8192) : EReal :=
  term (ts (ix2 r s)) (cosAt en r s) r.val s.val

/-- Row `p` of tile `n` as a row of the matrix: tiles are numbered row-major over the 8 × 4 grid. -/
def row (n : Fin 32) (p : Fin 1024) : Fin 8192 := ⟨(n.val / 4) * 1024 + p.val, by omega⟩
/-- Column `q` of tile `n` as a column of the matrix. -/
def col (n : Fin 32) (q : Fin 2048) : Fin 8192 := ⟨(n.val % 4) * 2048 + q.val, by omega⟩

/-- The sum of tile `n`, rows first. -/
def tile (ts : TIdx → EReal) (en : EIdx → EReal) (n : Fin 32) : EReal :=
  ∑ p : Fin 1024, ∑ q : Fin 2048, entry ts en (row n p) (col n q)

/-- The running sum after tile `n`: it starts from 0 at the first tile. -/
def acc (ts : TIdx → EReal) (en : EIdx → EReal) : (n : ℕ) → n < 32 → EReal
  | 0, h => 0 + tile ts en ⟨0, h⟩
  | n + 1, h => acc ts en n (by omega) + tile ts en ⟨n + 1, h⟩

/-- 0.1 as a binary32 value, and the number of pairs 8192 · 8191 / 2 = 33550336 (exact in binary32). -/
def scale : EReal := Ideal.ofBits .f32 0x3DCCCCCD#32
def count : EReal := Ideal.ofBits .f32 0x4BFFF800#32

/-- The loss, grouped as the running sum scaled and then divided. -/
def loss (ts : TIdx → EReal) (en : EIdx → EReal) : EReal :=
  Ideal.div (scale * acc ts en 31 (by decide)) count

end Cert.Loss

end
-- ==== Proof.PayloadSum.lean ====
/-
  The additive part of the kernel's tile step, and its mask. A 1024 × 2048 block is summed along its columns, the
  1024 row sums are summed, and the total is added to the running sum: read at the one entry of the 1 × 1 cell this
  is the running sum plus the double sum over the block. The mask compares the global row index i0 · 1024 + p with the
  global column index i1 · 2048 + q as signed 32-bit words; both are below 8192, so the comparison is the one of
  naturals, and the bit converted to a float is 1 or 0.
-/
import proofs.«104046_j11570641895637_2_alg».proof.Proof.Spec
import proofs.«104046_j11570641895637_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The sum along the columns of a 1024 × 2048 block, read at row `p`. -/
theorem rowsum_apply (x : FVec Ideal S1024x2048 .f32) (h : S1024x2048.Reduces [1] S1024) (hφ : FKind.Formats .f32)
    (hacc : (0x00000000#32 : BitVec 32) = FKind.add.neutral .f32 hφ) (p : Fin 1024) :
    multiReduction .add [1] S1024 x 0x00000000#32 h hφ hacc (ix1 p) = ∑ q : Fin 2048, x (ix2 p q) := by
  refine (Ideal.multiReduction_add_single x 0x00000000#32 h hφ hacc (ix1 p)).trans ?_
  exact Finset.sum_congr rfl fun k _ => congrArg x (funext fun c => Fin.ext (by
    match c with
    | ⟨0, _⟩ => rfl
    | ⟨1, _⟩ => rfl))

/-- A vector of 1024 entries viewed as a 1024 × 1 column reads the same entries. -/
theorem rowcast_apply (x : FVec Ideal S1024 .f32) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the rows of a 1024 × 1 column, read at its one entry. -/
theorem colsum_apply (x : FVec Ideal S1024x1 .f32) (h : S1024x1.Reduces [0] S1) (hφ : FKind.Formats .f32)
    (hacc : (0x00000000#32 : BitVec 32) = FKind.add.neutral .f32 hφ) (u : Fin 1) :
    multiReduction .add [0] S1 x 0x00000000#32 h hφ hacc (ix1 u) = ∑ p : Fin 1024, x (ix2 p u) := by
  refine (Ideal.multiReduction_add_single x 0x00000000#32 h hφ hacc (ix1 u)).trans ?_
  exact Finset.sum_congr rfl fun k _ => congrArg x (funext fun c => Fin.ext (by
    match c with
    | ⟨0, _⟩ => rfl
    | ⟨1, _⟩ => rfl))

/-- A one-entry vector viewed as a 1 × 1 block reads that entry. -/
theorem unitcast_apply (x : FVec Ideal S1 .f32) (h : S1.ShapeCasts S1x1) (u v : Fin 1) :
    shapeCast S1x1 x h (ix2 u v) = x (ix1 v) :=
  shapeCast_apply x h _ _ (by
    have hu : u.val = 0 := by omega
    rw [Shape.rowMajor_val_two, Shape.rowMajor_val_one]
    show v.val = u.val * 1 + v.val
    rw [hu, Nat.zero_mul, Nat.zero_add])

/-- Rows first, then the column of row sums, added to the running sum: the double sum over the block. -/
theorem total_apply (x : FVec Ideal S1024x2048 .f32) (a : FVec Ideal S1x1 .f32)
    (h1 : S1024x2048.Reduces [1] S1024) (hφ : FKind.Formats .f32)
    (hacc : (0x00000000#32 : BitVec 32) = FKind.add.neutral .f32 hφ)
    (hc1 : S1024.ShapeCasts S1024x1) (h2 : S1024x1.Reduces [0] S1) (hc2 : S1.ShapeCasts S1x1)
    (hc3 : S1x1.ShapeCasts S1x1) (j : S1x1.Idx) :
    shapeCast S1x1 (addf a (shapeCast S1x1 (multiReduction .add [0] S1
        (shapeCast S1024x1 (multiReduction .add [1] S1024 x 0x00000000#32 h1 hφ hacc) hc1)
        0x00000000#32 h2 hφ hacc) hc2)) hc3 j
      = a j + ∑ p : Fin 1024, ∑ q : Fin 2048, x (ix2 p q) := by
  rw [shapeCast_self]
  obtain ⟨u, v, rfl⟩ : ∃ u v : Fin 1, j = ix2 u v := ⟨j 0, j 1, eq_ix2 j⟩
  refine congrArg (a (ix2 u v) + ·) ?_
  refine (unitcast_apply _ hc2 u v).trans ?_
  refine (colsum_apply _ h2 hφ hacc v).trans ?_
  refine Finset.sum_congr rfl fun p _ => ?_
  refine (rowcast_apply _ hc1 p v).trans ?_
  exact rowsum_apply x h1 hφ hacc p

/-- A natural below 8192 read back from its 32-bit word as a signed integer. -/
theorem toInt_ofNat_small (a : ℕ) (ha : a < 8192) : (BitVec.ofNat 32 a).toInt = (a : ℤ) := by
  have h : (BitVec.ofNat 32 a).toNat = a := by
    rw [BitVec.toNat_ofNat]; exact Nat.mod_eq_of_lt (by omega)
  rw [BitVec.toInt_eq_toNat_of_lt (by rw [h]; omega), h]

/-- A bit widened to 32 bits and converted to a float is 1 or 0. -/
theorem bit_to_float (b : Bool) :
    FloatOps.sitofp (F := Ideal) .f32 ((BitVec.ofBool b).setWidth 32) = if b then (1 : EReal) else 0 := by
  show (((((BitVec.ofBool b).setWidth 32).toInt : ℤ) : ℝ) : EReal) = _
  cases b
  · have h : ((BitVec.ofBool false).setWidth 32).toInt = 0 := by decide
    rw [h]; simp
  · have h : ((BitVec.ofBool true).setWidth 32).toInt = 1 := by decide
    rw [h]; simp

/-- The signed comparison of two small naturals' words, widened and converted, is the indicator of `a < b`. -/
theorem mask_eq (a b : ℕ) (ha : a < 8192) (hb : b < 8192) :
    FloatOps.sitofp (F := Ideal) .f32 ((IntOp.cmpi .slt (BitVec.ofNat 32 a) (BitVec.ofNat 32 b)).setWidth 32)
      = if a < b then (1 : EReal) else 0 := by
  unfold IntOp.cmpi
  rw [bit_to_float]
  show (if (BitVec.ofNat 32 a).slt (BitVec.ofNat 32 b) = true then (1 : EReal) else 0) = _
  rw [BitVec.slt_eq_decide, toInt_ofNat_small a ha, toInt_ofNat_small b hb]
  by_cases h : a < b
  · rw [if_pos h, if_pos (by simpa using h)]
  · rw [if_neg h, if_neg (by simpa using h)]

/-- The kernel's mask at entry (p, q) of tile (i0, i1): 1 when the global row is strictly below the global column index. -/
theorem mask_apply (i0 i1 : ℕ) (hi0 : i0 < 8) (hi1 : i1 < 4) (h0 : S1024x2048.Iotas .tc 32 [0])
    (h1 : S1024x2048.Iotas .tc 32 [1]) (hlt : 1 < 32) (p : Fin 1024) (q : Fin 2048) :
    (sitofp .f32 (extui 32 (cmpi .slt
        (addi (broadcast S1024x2048 (Scalar.muli (BitVec.ofNat 32 i0) 1024#32)) (iota .tc S1024x2048 32 [0] h0))
        (addi (broadcast S1024x2048 (Scalar.muli (BitVec.ofNat 32 i1) 2048#32)) (iota .tc S1024x2048 32 [1] h1))) hlt)
      : FVec Ideal S1024x2048 .f32) (ix2 p q)
      = if i0 * 1024 + p.val < i1 * 2048 + q.val then (1 : EReal) else 0 := by
  show FloatOps.sitofp (F := Ideal) .f32 ((IntOp.cmpi .slt
      (BitVec.ofNat 32 i0 * 1024#32 + iota .tc S1024x2048 32 [0] h0 (ix2 p q))
      (BitVec.ofNat 32 i1 * 2048#32 + iota .tc S1024x2048 32 [1] h1 (ix2 p q))).setWidth 32) = _
  rw [iota_single_apply, iota_single_apply]
  show FloatOps.sitofp (F := Ideal) .f32 ((IntOp.cmpi .slt
      (BitVec.ofNat 32 i0 * BitVec.ofNat 32 1024 + BitVec.ofNat 32 p.val)
      (BitVec.ofNat 32 i1 * BitVec.ofNat 32 2048 + BitVec.ofNat 32 q.val)).setWidth 32) = _
  rw [← BitVec.ofNat_mul, ← BitVec.ofNat_mul, ← BitVec.ofNat_add, ← BitVec.ofNat_add]
  exact mask_eq _ _ (by have := p.isLt; omega) (by have := q.isLt; omega)

end Cert.KernelIdeal.Pay

end
-- ==== Proof.PayloadCos.lean ====
/-
  The tile of inner products: the product of a 1024 × 256 block with the transpose of a 2048 × 256 block, accumulated
  into zero, has at (p, q) the sum over k of the first block at (p, k) times the second at (q, k). At the ideal
  instance the narrowing of the operands to a shorter float format is the identity.
-/
import proofs.«104046_j11570641895637_2_alg».proof.Proof.Spec
import proofs.«104046_j11570641895637_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The product's left operand index at output (r, c) and contraction coordinate k is (r, k) … -/
theorem lhs_idx_0 (i : S1024x2048.Idx) (κ : dot_S1024x256_S256x2048_S1024x2048_1_0_0_1_n_n.contr.Idx) :
    (dot_S1024x256_S256x2048_S1024x2048_1_0_0_1_n_n.lhsIdx i κ 0).val = (i 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl
theorem lhs_idx_1 (i : S1024x2048.Idx) (κ : dot_S1024x256_S256x2048_S1024x2048_1_0_0_1_n_n.contr.Idx) :
    (dot_S1024x256_S256x2048_S1024x2048_1_0_0_1_n_n.lhsIdx i κ 1).val = (κ ⟨0, by decide⟩).val :=
  dot_S1024x256_S256x2048_S1024x2048_1_0_0_1_n_n.lhsIdx_val_of_single rfl i κ
/-- … and the right operand index is (k, c). -/
theorem rhs_idx_0 (i : S1024x2048.Idx) (κ : dot_S1024x256_S256x2048_S1024x2048_1_0_0_1_n_n.contr.Idx) :
    (dot_S1024x256_S256x2048_S1024x2048_1_0_0_1_n_n.rhsIdx i κ 0).val = (κ ⟨0, by decide⟩).val :=
  dot_S1024x256_S256x2048_S1024x2048_1_0_0_1_n_n.rhsIdx_val_of_single rfl i κ
theorem rhs_idx_1 (i : S1024x2048.Idx) (κ : dot_S1024x256_S256x2048_S1024x2048_1_0_0_1_n_n.contr.Idx) :
    (dot_S1024x256_S256x2048_S1024x2048_1_0_0_1_n_n.rhsIdx i κ 1).val = (i 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl

/-- The tile's inner products: entry (p, q) of the product of the first block with the transposed second block is
    the inner product of row `p` of the first with row `q` of the second (the narrowing format change is the
    identity on extended reals, and the accumulator is zero). -/
theorem cos_apply (e1 : FVec Ideal S1024x256 .f32) (e2 : FVec Ideal S2048x256 .f32)
    (hc1 : S1024x256.ShapeCasts S1024x256) (hc2 : S2048x256.ShapeCasts S2048x256)
    (hb : FTy.bits .bf16 < FTy.bits .f32) (ht : S2048x256.Transposes [1, 0] S256x2048)
    (p : Fin 1024) (q : Fin 2048) :
    matmul dot_S1024x256_S256x2048_S1024x2048_1_0_0_1_n_n none
        (truncf .bf16 (shapeCast S1024x256 e1 hc1) hb : FVec Ideal S1024x256 .bf16)
        (transpose S256x2048 [1, 0] (truncf .bf16 (shapeCast S2048x256 e2 hc2) hb : FVec Ideal S2048x256 .bf16) ht)
        (constant S1024x2048 .f32 0x00000000#32) (ix2 p q)
      = ∑ k : Fin 256, e1 (ix2 p k) * e2 (ix2 q k) := by
  rw [shapeCast_self, shapeCast_self]
  simp only [matmul]
  rw [Ideal.matmul_constant_zero_apply,
    ← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 p q)
      ((contrEquiv1 dot_S1024x256_S256x2048_S1024x2048_1_0_0_1_n_n 256 rfl rfl).symm k) = ix2 p k :=
    funext fun a => Fin.ext (by
      match a with
      | ⟨0, _⟩ => exact lhs_idx_0 _ _
      | ⟨1, _⟩ => exact (lhs_idx_1 _ _).trans hk)
  have er : dot_S1024x256_S256x2048_S1024x2048_1_0_0_1_n_n.rhsIdx (ix2 p q)
      ((contrEquiv1 dot_S1024x256_S256x2048_S1024x2048_1_0_0_1_n_n 256 rfl rfl).symm k) = ix2 k q :=
    funext fun a => Fin.ext (by
      match a with
      | ⟨0, _⟩ => exact (rhs_idx_0 _ _).trans hk
      | ⟨1, _⟩ => exact rhs_idx_1 _ _)
  rw [el, er]
  refine congrArg (e1 (ix2 p k) * ·) ?_
  exact transpose_ix2_apply _ ht k q

end Cert.KernelIdeal.Pay

end
-- ==== Proof.Payload.lean ====
/-
  The three values the kernel body stores, read at an index on the extended reals: the zero that starts the running
  sum; the tile step (the running sum plus the tile's masked absolute differences between the similarities and the
  inner products of the two embedding blocks, rows first); and the final scaling and division of the running sum.
-/
import proofs.«104046_j11570641895637_2_alg».proof.Proof.Spec
import proofs.«104046_j11570641895637_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«104046_j11570641895637_2_alg».proof.Proof.PayloadSum
import proofs.«104046_j11570641895637_2_alg».proof.Proof.PayloadCos

noncomputable section

open scoped BigOperators

namespace Cert.KernelIdeal.Pay

open Cert.KernelIdeal Cert.KernelIdeal.Gen Idealize.ShloMosaic Idealize.ShloMosaic.ValueIdx

/-- The first store of the running sum writes the constant zero. -/
theorem pay2_apply (j : S1x1.Idx) : k0_pay2 (F := Ideal) j = 0 := by
  unfold k0_pay2
  rw [shapeCast_self]
  exact Ideal.ofBits_zero_f32

/-- The last tile's store scales the running sum and divides it by the number of pairs. -/
theorem pay1_apply (v : Vec Ideal S1x1 .f32) (j : S1x1.Idx) :
    k0_pay1 (F := Ideal) v j = Ideal.div (Cert.Loss.scale * v j) Cert.Loss.count := rfl

/-- The tile step: the running sum plus the tile's masked absolute differences, rows first. -/
theorem pay3_apply (i : grid0.Coords) (e1 : Vec Ideal S1024x256 .f32) (e2 : Vec Ideal S2048x256 .f32)
    (t : Vec Ideal S1024x2048 .f32) (a : Vec Ideal S1x1 .f32) (j : S1x1.Idx) :
    k0_pay3 (F := Ideal) i e1 e2 t a j
      = a j + ∑ p : Fin 1024, ∑ q : Fin 2048,
          Cert.Loss.term (t (ix2 p q)) (∑ k : Fin 256, e1 (ix2 p k) * e2 (ix2 q k))
            ((i 0).val * 1024 + p.val) ((i 1).val * 2048 + q.val) := by
  have hi0 : (i 0).val < 8 := (i 0).isLt
  have hi1 : (i 1).val < 4 := (i 1).isLt
  unfold k0_pay3
  refine (total_apply _ a _ _ _ _ _ _ _ j).trans ?_
  refine congrArg (a j + ·) (Finset.sum_congr rfl fun p _ => Finset.sum_congr rfl fun q _ => ?_)
  refine (mulf_apply _ _ (ix2 p q)).trans ?_
  rw [mask_apply (i 0).val (i 1).val hi0 hi1]
  refine congrArg (· * (if (i 0).val * 1024 + p.val < (i 1).val * 2048 + q.val then (1 : EReal) else 0)) ?_
  show max (t (ix2 p q) - _) (-(t (ix2 p q) - _)) = _
  rw [cos_apply]

end Cert.KernelIdeal.Pay

end
-- ==== Proof.KI.Blocks.lean ====
/-
  The three input windows' blocks read at an index. The similarity matrix is cut into 8 × 4 blocks of 1024 × 2048
  entries and grid point t, row-major, reads block (t / 4, t % 4); the embeddings are read twice, as the 1024 rows
  of row block t / 4 and as the 2048 rows of row block t % 4. An entry of a block sits in its array, on each axis,
  at the block index times the block's extent plus its coordinate inside the block.
-/
import proofs.«104046_j11570641895637_2_alg».proof.Proof.KI.Frame
import proofs.«104046_j11570641895637_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The grid points and the windows' block indices -/

/-- Point `t` of the 8 × 4 grid, row-major, has coordinates (t / 4, t % 4). -/
theorem coords_val : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The block each input window reads at point `t`: the similarities' block (t / 4, t % 4), the embeddings' row block
    t / 4 for the first factor and t % 4 for the second. -/
theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = t.val % 4 ∧ win0_2.index t (1 : Fin 2) = 0 :=
  (by decide +kernel : ∀ t : Fin grid0.N, _)

section Region
variable (V : (c : Dev nD) → (b : Ref sig .tc) → Buf (Elt F) ((c : Thread nD τ).loc b))

/-! ## The blocks read at an index -/

/-- The similarities' block at point `t`, at (p, q), is the matrix at the tile's row and column. -/
theorem iblk0_apply (c : Dev nD) (t : Fin cfg0.N) (n : Fin 32) (hn : n.val = t.val) (p : Fin 1024) (q : Fin 2048) :
    (iblk V c 0 t : Vec F S1024x2048 .f32) (ix2 p q)
      = (V c main_arg1 : S8192x8192.Idx → Elt F .f32) (ix2 (Cert.Loss.row n p) (Cert.Loss.col n q)) := by
  obtain ⟨e0, e1, -⟩ := idx_facts t
  unfold iblk
  rw [View.read_apply]
  show V c main_arg1 _ = V c main_arg1 _
  congr 1
  funext a
  apply Fin.ext
  match a with
  | ⟨0, _⟩ => show win0_0.index t (0 : Fin 2) * 1024 + 1 * p.val = (n.val / 4) * 1024 + p.val; rw [e0, hn]; omega
  | ⟨1, _⟩ => show win0_0.index t (1 : Fin 2) * 2048 + 1 * q.val = (n.val % 4) * 2048 + q.val; rw [e1, hn]; omega

/-- The first embeddings block at point `t`, at (p, k), is the embeddings at the tile's row. -/
theorem iblk1_apply (c : Dev nD) (t : Fin cfg0.N) (n : Fin 32) (hn : n.val = t.val) (p : Fin 1024) (k : Fin 256) :
    (iblk V c 1 t : Vec F S1024x256 .f32) (ix2 p k)
      = (V c main_v4 : S8192x256.Idx → Elt F .f32) (ix2 (Cert.Loss.row n p) k) := by
  obtain ⟨-, -, e0, e1, -⟩ := idx_facts t
  unfold iblk
  rw [View.read_apply]
  show V c main_v4 _ = V c main_v4 _
  congr 1
  funext a
  apply Fin.ext
  match a with
  | ⟨0, _⟩ => show win0_1.index t (0 : Fin 2) * 1024 + 1 * p.val = (n.val / 4) * 1024 + p.val; rw [e0, hn]; omega
  | ⟨1, _⟩ => show win0_1.index t (1 : Fin 2) * 256 + 1 * k.val = k.val; rw [e1]; omega

/-- The second embeddings block at point `t`, at (q, k), is the embeddings at the tile's column. -/
theorem iblk2_apply (c : Dev nD) (t : Fin cfg0.N) (n : Fin 32) (hn : n.val = t.val) (q : Fin 2048) (k : Fin 256) :
    (iblk V c 2 t : Vec F S2048x256 .f32) (ix2 q k)
      = (V c main_v4 : S8192x256.Idx → Elt F .f32) (ix2 (Cert.Loss.col n q) k) := by
  obtain ⟨-, -, -, -, e0, e1⟩ := idx_facts t
  unfold iblk
  rw [View.read_apply]
  show V c main_v4 _ = V c main_v4 _
  congr 1
  funext a
  apply Fin.ext
  match a with
  | ⟨0, _⟩ => show win0_2.index t (0 : Fin 2) * 2048 + 1 * q.val = (n.val % 4) * 2048 + q.val; rw [e0, hn]; omega
  | ⟨1, _⟩ => show win0_2.index t (1 : Fin 2) * 256 + 1 * k.val = k.val; rw [e1]; omega

end Region

end Cert.KernelIdeal.Hand

end
-- ==== Proof.KI.Value.lean ====
/-
  The kernel's running sum is the specification's: after grid point n the scratch cell holds the sum of tiles
  0 … n taken in the row-major order of the 8 × 4 grid, each tile summed rows first over the blocks the three
  windows present at the point, and at the last point the output cell holds that sum scaled and divided.
-/
import proofs.«104046_j11570641895637_2_alg».proof.Proof.KI.Pieces
import proofs.«104046_j11570641895637_2_alg».proof.Proof.Spec
import proofs.«104046_j11570641895637_2_alg».proof.Proof.Payload
import proofs.«104046_j11570641895637_2_alg».proof.Proof.KI.Blocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The running contents as payloads, at any float values -/

section Generic
variable {F : FTy → Type} [FloatOps F]
variable (V : (c : Dev nD) → (b : Ref sig .tc) → Buf (Elt F) ((c : Thread nD τ).loc b))

/-- After the first point the scratch cell holds the tile step over zero. -/
theorem snd_A (c : Dev nD) (t : Fin cfg0.N) (h0 : t.val = 0) (h1 : ¬t.val = 31) :
    (outsAt V c t.val t.isLt).2 = k0_pay3 (grid0.coords t) (iblk V c 1 t) (iblk V c 2 t) (iblk V c 0 t) k0_pay2 := by
  rw [outsAt_A V c t h0 h1]
  dsimp only
  exact sout_A_eq c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)

/-- After a middle point it holds the tile step over what the point before left. -/
theorem snd_B (c : Dev nD) (t : Fin cfg0.N) (h0 : ¬t.val = 0) (h1 : ¬t.val = 31) :
    (outsAt V c t.val t.isLt).2 = k0_pay3 (grid0.coords t) (iblk V c 1 t) (iblk V c 2 t) (iblk V c 0 t)
      (outsAt V c (t.val - 1) (Nat.lt_of_le_of_lt (Nat.sub_le _ _) t.isLt)).2 := by
  rw [outsAt_B V c t h0 h1]
  dsimp only
  exact sout_B_eq c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2

/-- After the last point likewise, -/
theorem snd_C (c : Dev nD) (t : Fin cfg0.N) (h0 : ¬t.val = 0) (h1 : t.val = 31) :
    (outsAt V c t.val t.isLt).2 = k0_pay3 (grid0.coords t) (iblk V c 1 t) (iblk V c 2 t) (iblk V c 0 t)
      (outsAt V c (t.val - 1) (Nat.lt_of_le_of_lt (Nat.sub_le _ _) t.isLt)).2 := by
  rw [outsAt_C V c t h0 h1]
  dsimp only
  exact sout_C_eq c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2

/-- and the output cell holds that new running sum scaled and divided. -/
theorem fst_C (c : Dev nD) (t : Fin cfg0.N) (h0 : ¬t.val = 0) (h1 : t.val = 31) :
    (outsAt V c t.val t.isLt).1 = k0_pay1 (k0_pay3 (grid0.coords t) (iblk V c 1 t) (iblk V c 2 t) (iblk V c 0 t)
      (outsAt V c (t.val - 1) (Nat.lt_of_le_of_lt (Nat.sub_le _ _) t.isLt)).2) := by
  rw [outsAt_C V c t h0 h1]
  dsimp only
  exact out_C_eq c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2

end Generic

/-! ## Over the extended reals -/

/-- One tile step: from blocks that are tile n of the similarities and the two bands of the embeddings that tile n
    meets, the step adds tile n's sum. -/
theorem tile_step (ts : Cert.Loss.TIdx → EReal) (en : Cert.Loss.EIdx → EReal) (n : Fin 32) (i : grid0.Coords)
    (hi0 : (i 0).val = n.val / 4) (hi1 : (i 1).val = n.val % 4)
    (b0 : Vec Ideal S1024x2048 .f32) (b1 : Vec Ideal S1024x256 .f32) (b2 : Vec Ideal S2048x256 .f32)
    (h0 : ∀ (p : Fin 1024) (q : Fin 2048), b0 (ix2 p q) = ts (ix2 (Cert.Loss.row n p) (Cert.Loss.col n q)))
    (h1 : ∀ (p : Fin 1024) (k : Fin 256), b1 (ix2 p k) = en (ix2 (Cert.Loss.row n p) k))
    (h2 : ∀ (q : Fin 2048) (k : Fin 256), b2 (ix2 q k) = en (ix2 (Cert.Loss.col n q) k))
    (a : Vec Ideal S1x1 .f32) (j : S1x1.Idx) :
    k0_pay3 (F := Ideal) i b1 b2 b0 a j = a j + Cert.Loss.tile ts en n := by
  rw [Cert.KernelIdeal.Pay.pay3_apply]
  refine congrArg (a j + ·) ?_
  unfold Cert.Loss.tile
  refine Finset.sum_congr rfl fun p _ => Finset.sum_congr rfl fun q _ => ?_
  unfold Cert.Loss.entry Cert.Loss.cosAt
  rw [h0, hi0, hi1]
  simp only [h1, h2]
  rfl

section AtIdeal
variable (V : (c : Dev nD) → (b : Ref sig .tc) → Buf (Elt Ideal) ((c : Thread nD τ).loc b))

/-- The similarities and the normalised embeddings as the region finds them. -/
abbrev tsOf (c : Dev nD) : Cert.Loss.TIdx → EReal := V c main_arg1
abbrev enOf (c : Dev nD) : Cert.Loss.EIdx → EReal := V c main_v4

/-- A point of the grid as a tile number. -/
abbrev tileOf (t : Fin cfg0.N) : Fin 32 := Fin.cast N_0 t

/-- The tile step at point t over any running sum. -/
theorem step_at (c : Dev nD) (t : Fin cfg0.N) (a : Vec Ideal S1x1 .f32) (j : S1x1.Idx) :
    k0_pay3 (F := Ideal) (grid0.coords t) (iblk V c 1 t) (iblk V c 2 t) (iblk V c 0 t) a j
      = a j + Cert.Loss.tile (tsOf V c) (enOf V c) (tileOf t) :=
  tile_step (tsOf V c) (enOf V c) (tileOf t) (grid0.coords t) (coords_val t).1 (coords_val t).2
    (iblk V c 0 t) (iblk V c 1 t) (iblk V c 2 t) (fun p q => iblk0_apply V c t (tileOf t) rfl p q) (fun p k => iblk1_apply V c t (tileOf t) rfl p k)
    (fun q k => iblk2_apply V c t (tileOf t) rfl q k) a j

/-- After point n the scratch cell holds the running sum of tiles 0 … n. -/
theorem scratch_eq (c : Dev nD) : ∀ (n : ℕ) (hn : n < cfg0.N),
    (outsAt V c n hn).2 = fun _ => Cert.Loss.acc (tsOf V c) (enOf V c) n (lt_of_lt_of_eq hn N_0)
  | 0, hn => by
    refine (snd_A V c ⟨0, hn⟩ rfl (by show ¬(0 : ℕ) = 31; decide)).trans ?_
    funext j
    rw [step_at V c ⟨0, hn⟩ (k0_pay2 (F := Ideal)) j, Cert.KernelIdeal.Pay.pay2_apply]
    rfl
  | n + 1, hn => by
    have ih := scratch_eq c n (Nat.lt_of_succ_lt hn)
    by_cases h1 : n + 1 = 31
    · refine (snd_C V c ⟨n + 1, hn⟩ (Nat.succ_ne_zero n) h1).trans ?_
      funext j
      rw [step_at V c ⟨n + 1, hn⟩ _ j]
      exact congrArg (· + Cert.Loss.tile (tsOf V c) (enOf V c) ⟨n + 1, lt_of_lt_of_eq hn N_0⟩) (congrFun ih j)
    · refine (snd_B V c ⟨n + 1, hn⟩ (Nat.succ_ne_zero n) h1).trans ?_
      funext j
      rw [step_at V c ⟨n + 1, hn⟩ _ j]
      exact congrArg (· + Cert.Loss.tile (tsOf V c) (enOf V c) ⟨n + 1, lt_of_lt_of_eq hn N_0⟩) (congrFun ih j)

/-- After the last point the output cell holds the loss. -/
theorem out_eq (c : Dev nD) (h31 : 31 < cfg0.N) :
    (outsAt V c 31 h31).1 = fun _ => Cert.Loss.loss (tsOf V c) (enOf V c) := by
  refine (fst_C V c ⟨31, h31⟩ (by show ¬(31 : ℕ) = 0; decide) rfl).trans ?_
  funext j
  rw [Cert.KernelIdeal.Pay.pay1_apply]
  have hs := congrFun ((snd_C V c ⟨31, h31⟩ (by show ¬(31 : ℕ) = 0; decide) rfl).symm.trans (scratch_eq V c 31 h31)) j
  rw [hs]
  rfl

end AtIdeal

end Cert.KernelIdeal.Hand

end
-- ==== Proof.KI.OutArray.lean ====
/-
  The result array after the region. The output window's one block is the whole 1 × 1 array, and the pipeline writes
  it back at the last grid point only; so after the region the array holds what the body left in the output cell
  at point 31.
-/
import proofs.«104046_j11570641895637_2_alg».proof.Proof.KI.Frame
import proofs.«104046_j11570641895637_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- There are 32 grid points, so 31 is one of them. -/
theorem lt_31 : 31 < cfg0.N := by have h : cfg0.N = 32 := N_0; omega

section Region
variable (V : (c : Dev nD) → (b : Ref sig .tc) → Buf (Elt F) ((c : Thread nD τ).loc b))

/-- The output window's block sits at offset zero on both axes, at every point. -/
theorem off3_zero (t : Fin cfg0.N) : (fun a => win0_3.index t a * main_v5.ty.shape.size a) = fun _ => 0 :=
  funext fun a => by
    match a with
    | ⟨0, _⟩ => rfl
    | ⟨1, _⟩ => rfl

/-- The one write-back, at the last point, writes what the body left in the output cell there, the whole array. -/
theorem flushed3_eq (c : Dev nD) (t : Fin cfg0.N) (hf : (cfg0.win 3).flush t = true) :
    (dat V c).flushed 3 t = ((cfg0.win 3).blk t).view.read (Elt F) ((outsAt V c 31 (lt_31)).1) := by
  have hN : cfg0.N = 32 := N_0
  have h1 : t.val = 31 := by have := (flush0_3 t).mp hf; have := t.isLt; omega
  obtain rfl : t = ⟨31, lt_31⟩ := Fin.ext h1
  show (cfg0.win 3).cut (grid0.coords _) ((dat V c).after 3 _) = _
  rw [after_3]
  exact (Memref.read_access_unit_zero (Elt F) main_v5 (off3_zero _) (fun a => by rw [congrFun (off3_zero _) a]; simp) _).symm

/-- So the result array ends holding the output cell's contents after point 31. -/
theorem arrAt_out (c : Dev nD) : (dat V c).arrAt 3 cfg0.N = (outsAt V c 31 (lt_31)).1 :=
  (dat V c).arrAt_eq_of_cover 3 _ (flushed3_eq V c) fun i =>
    ⟨⟨31, lt_31⟩, (flush0_3 _).mpr rfl, by
      show i ∈ ((View.whole main_v5).slice (win0_3.rect ⟨31, lt_31⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index ⟨31, lt_31⟩ 0 * win0_3.size 0 ≤ (i 0 : Nat)
          ∧ (i 0 : Nat) < win0_3.index ⟨31, lt_31⟩ 0 * win0_3.size 0 + win0_3.xsize (grid0.coords ⟨31, lt_31⟩) 0
        rw [show win0_3.index ⟨31, lt_31⟩ 0 * win0_3.size 0 = 0 from rfl,
          show win0_3.xsize (grid0.coords ⟨31, lt_31⟩) 0 = 1 from by decide +kernel]
        omega
      | ⟨1, _⟩ =>
        show win0_3.index ⟨31, lt_31⟩ 1 * win0_3.size 1 ≤ (i 1 : Nat)
          ∧ (i 1 : Nat) < win0_3.index ⟨31, lt_31⟩ 1 * win0_3.size 1 + win0_3.xsize (grid0.coords ⟨31, lt_31⟩) 1
        rw [show win0_3.index ⟨31, lt_31⟩ 1 * win0_3.size 1 = 0 from rfl,
          show win0_3.xsize (grid0.coords ⟨31, lt_31⟩) 1 = 1 from by decide +kernel]
        omega⟩

end Region

end Cert.KernelIdeal.Hand

end
-- ==== Proof.KI.Result.lean ====
/-
  What the kernel's program returns, at the ideal instance: the buffers the region finds hold the similarities as
  launched and the embeddings divided by their clamped row norms (the very term the reference computes); the region
  leaves the loss of those two in the 1 × 1 result cell; the last host operation reads that cell as a scalar.
-/
import proofs.«104046_j11570641895637_2_alg».proof.Proof.KI.Main
import proofs.«104046_j11570641895637_2_alg».proof.Proof.KI.Value
import proofs.«104046_j11570641895637_2_alg».proof.Proof.KI.OutArray
import proofs.«104046_j11570641895637_2_alg».proof.Proof.Gen.ReferenceIdeal.Read
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo

section AnyF
variable (m : (ℓ : Loc nD τ sig) → Buf (Elt F) ℓ) (ρ : Dev nD → PrngReg)

/-- The region finds the similarities as launched: no host operation writes them. -/
theorem V2_arg1 (c : Dev nD) : V2 m ρ c main_arg1 = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The region finds, as the embeddings, the launch embeddings divided by their row norms clamped below: the
    reference's own normalisation term of them. -/
theorem V2_v4 (c : Dev nD) :
    V2 m ρ c main_v4 = Cert.ReferenceIdeal.Read.val_main_v4 (F := F) (m ((c : Thread nD τ).loc main_arg0)) := by
  show StableHlo.after hostOps0_1 (StableHlo.after hostOps0 (W0 m ρ c)) (Proc.devRef .tc main_v4) = _
  after_results
  rfl

end AnyF

variable (m : (ℓ : Loc nD τ sig) → Buf (Elt Ideal) ℓ) (ρ : Dev nD → PrngReg)

/-- The program's result: the loss of the launch similarities and the normalised launch embeddings. -/
theorem result (c : Dev nD) :
    W4 (F := Ideal) m ρ c (Proc.devRef .tc main_v6)
      = fun _ => Cert.Loss.loss (m ((c : Thread nD τ).loc main_arg1))
          (Cert.ReferenceIdeal.Read.val_main_v4 (F := Ideal) (m ((c : Thread nD τ).loc main_arg0))) := by
  have h5 : W3 m ρ c (Proc.devRef .tc main_v5)
      = fun _ => Cert.Loss.loss (m ((c : Thread nD τ).loc main_arg1))
          (Cert.ReferenceIdeal.Read.val_main_v4 (F := Ideal) (m ((c : Thread nD τ).loc main_arg0))) := by
    refine (W3_v5 m ρ c).trans ((arrAt_out (V2 m ρ) c).trans ((out_eq (V2 m ρ) c lt_31).trans ?_))
    show (fun _ => Cert.Loss.loss (V2 m ρ c main_arg1) (V2 m ρ c main_v4)) = _
    rw [V2_arg1 m ρ c, V2_v4 m ρ c]
    rfl
  show StableHlo.after hostOps1 (W3 m ρ c) (Proc.devRef .tc main_v6) = _
  after_results
  rw [h5]
  funext i
  exact shapeCast_apply _ shapeCasts_S1x1_S_ i (ix2 0 0) rfl

end Cert.KernelIdeal.Hand

end
-- ==== Proof.Tiles.lean ====
/-
  The sum of all entries of the masked difference matrix, taken in any order, is the sum of its 32 tile sums;
  the running sum after the last tile is that sum; and scaling before or after dividing by the number of pairs
  gives the same loss.
-/
import proofs.«104046_j11570641895637_2_alg».proof.Proof.Spec
import Mathlib.Algebra.BigOperators.Fin
import Mathlib.Logic.Equiv.Fin.Basic

noncomputable section

open scoped BigOperators

namespace Cert.Loss

open Idealize.ShloMosaic Idealize.ShloMosaic.ValueIdx

/-- A position inside band `a` of width `B` lies below `A * B`. -/
theorem band_lt {A B : ℕ} (a : Fin A) (p : Fin B) : a.val * B + p.val < A * B := by
  have ha := a.isLt
  have hp := p.isLt
  calc a.val * B + p.val < a.val * B + B := by omega
    _ = (a.val + 1) * B := by ring
    _ ≤ A * B := Nat.mul_le_mul_right _ (by omega)

/-- A sum over `A * B` consecutive positions is the sum over `A` bands of the sums over the `B` positions of each. -/
theorem sum_bands {M : Type*} [AddCommMonoid M] (A B N : ℕ) (hN : A * B = N) (f : Fin N → M) :
    ∑ i : Fin N, f i = ∑ a : Fin A, ∑ p : Fin B, f ⟨a.val * B + p.val, hN ▸ band_lt a p⟩ := by
  subst hN
  rw [← Equiv.sum_comp finProdFinEquiv f, Fintype.sum_prod_type]
  refine Finset.sum_congr rfl fun a _ => Finset.sum_congr rfl fun p _ => ?_
  congr 1
  ext
  simp [finProdFinEquiv]
  ring

/-- The tile in band `a` of rows and band `b` of columns, summed rows first. -/
theorem tile_bands (ts : TIdx → EReal) (en : EIdx → EReal) (a : Fin 8) (b : Fin 4) :
    tile ts en ⟨a.val * 4 + b.val, band_lt a b⟩ =
      ∑ p : Fin 1024, ∑ q : Fin 2048,
        entry ts en ⟨a.val * 1024 + p.val, band_lt a p⟩ ⟨b.val * 2048 + q.val, band_lt b q⟩ := by
  unfold tile
  refine Finset.sum_congr rfl fun p _ => Finset.sum_congr rfl fun q _ => ?_
  have ha := a.isLt
  have hb := b.isLt
  congr 1
  · ext; simp only [row]; omega
  · ext; simp only [col]; omega

theorem sum_eq_tiles (ts : TIdx → EReal) (en : EIdx → EReal) (g : TIdx → EReal)
    (hg : ∀ (r s : Fin 8192), g (ValueIdx.ix2 r s) = entry ts en r s) :
    (∑ j : TIdx, g j) = ∑ n : Fin 32, tile ts en n := by
  have hL : (∑ j : TIdx, g j) = ∑ a : Fin 8, ∑ p : Fin 1024, ∑ b : Fin 4, ∑ q : Fin 2048,
      entry ts en ⟨a.val * 1024 + p.val, band_lt a p⟩ ⟨b.val * 2048 + q.val, band_lt b q⟩ := by
    rw [sum_idx2 g]
    simp only [hg]
    rw [sum_bands 8 1024 8192 (by norm_num) (fun r => ∑ s : Fin 8192, entry ts en r s)]
    refine Finset.sum_congr rfl fun a _ => Finset.sum_congr rfl fun p _ => ?_
    exact sum_bands 4 2048 8192 (by norm_num) (fun s => entry ts en ⟨a.val * 1024 + p.val, band_lt a p⟩ s)
  have hR : (∑ n : Fin 32, tile ts en n) = ∑ a : Fin 8, ∑ b : Fin 4, ∑ p : Fin 1024, ∑ q : Fin 2048,
      entry ts en ⟨a.val * 1024 + p.val, band_lt a p⟩ ⟨b.val * 2048 + q.val, band_lt b q⟩ := by
    rw [sum_bands 8 4 32 (by norm_num) (tile ts en)]
    refine Finset.sum_congr rfl fun a _ => Finset.sum_congr rfl fun b _ => ?_
    exact tile_bands ts en a b
  rw [hL, hR]
  refine Finset.sum_congr rfl fun a _ => ?_
  exact Finset.sum_comm

/-- The running sum after tile `n` is the sum of the tiles up to and including `n`. -/
theorem acc_eq (ts : TIdx → EReal) (en : EIdx → EReal) :
    ∀ (n : ℕ) (h : n < 32), acc ts en n h = ∑ i : Fin (n + 1), tile ts en ⟨i.val, by omega⟩
  | 0, h => by simp [acc]
  | n + 1, h => by
    rw [acc, acc_eq ts en n (by omega)]
    exact (Fin.sum_univ_castSucc (fun i : Fin (n + 1 + 1) => tile ts en ⟨i.val, by omega⟩)).symm

theorem acc_last (ts : TIdx → EReal) (en : EIdx → EReal) :
    acc ts en 31 (by decide) = ∑ n : Fin 32, tile ts en n :=
  acc_eq ts en 31 (by decide)

/-- The number of pairs 8192 · 8191 / 2 as a real number. -/
theorem count_eq : count = ((33550336 : ℝ) : EReal) := by
  simp [count, Ideal.ofBits, Ideal.ieee, -EReal.coe_mul]; norm_num

theorem loss_eq (ts : TIdx → EReal) (en : EIdx → EReal) (g : TIdx → EReal)
    (hg : ∀ (r s : Fin 8192), g (ValueIdx.ix2 r s) = entry ts en r s) :
    scale * Ideal.div (0 + ∑ j : TIdx, g j) count = loss ts en := by
  rw [loss, acc_last, sum_eq_tiles ts en g hg, count_eq,
    Ideal.div_coe (by norm_num : (33550336 : ℝ) ≠ 0), Ideal.div_coe (by norm_num : (33550336 : ℝ) ≠ 0),
    zero_add, mul_assoc]

end Cert.Loss

end
-- ==== Proof.RefLoss.lean ====
/-
  The reference program computes the loss of the specification: entry by entry it forms the masked absolute
  difference between the similarities and the inner products of the normalised embeddings, sums all entries,
  divides by the number of pairs and scales.
-/
import proofs.«104046_j11570641895637_2_alg».proof.Proof.Spec
import proofs.«104046_j11570641895637_2_alg».proof.Proof.Tiles
import proofs.«104046_j11570641895637_2_alg».proof.Proof.Gen.ReferenceIdeal.Read

noncomputable section

open scoped BigOperators

namespace Cert.RefLoss

open Idealize.ShloMosaic Idealize.ShloMosaic.ValueIdx Cert.ReferenceIdeal Cert.ReferenceIdeal.Read Cert.Loss

/-- Two numbers below 8192 compare as signed 32-bit integers the way they compare as naturals. -/
theorem sle_ofNat (r s : ℕ) (hr : r < 8192) (hs : s < 8192) :
    (BitVec.ofNat 32 s).sle (BitVec.ofNat 32 r + 0#32) = decide (s ≤ r) := by
  rw [BitVec.add_zero]
  have h1 : (BitVec.ofNat 32 s).toInt = (s : Int) := by
    simp only [BitVec.toInt, BitVec.toNat_ofNat]; omega
  have h2 : (BitVec.ofNat 32 r).toInt = (r : Int) := by
    simp only [BitVec.toInt, BitVec.toNat_ofNat]; omega
  simp only [BitVec.sle, h1, h2, Nat.cast_le]

/-- The mask: 0 where the row index is at least the column index, 1 strictly above the diagonal. -/
theorem mask_eq (r s : ℕ) (hr : r < 8192) (hs : s < 8192) :
    Scalar.select (IntOp.cmpi .sge (IntOp.addi (BitVec.ofNat 32 r) 0#32) (BitVec.ofNat 32 s))
      (Ideal.ofBits .f32 0x00000000#32) (Ideal.ofBits .f32 0x3F800000#32) = (if r < s then (1 : EReal) else 0) := by
  have h1 : Ideal.ofBits .f32 0x3F800000#32 = 1 := by
    simp [Ideal.ofBits, Ideal.ieee, -EReal.coe_mul]; norm_num
  rw [h1, Ideal.ofBits_zero_f32]
  simp only [Scalar.select, IntOp.cmpi, IntOp.addi, sle_ofNat r s hr hs]
  by_cases h : s ≤ r
  · simp [h, Nat.not_lt.mpr h]
  · simp [h, Nat.lt_of_not_le h]

/-- The reference's mask at entry (r, s). -/
theorem val_mask (r s : Fin 8192) :
    val_main_v8 (F := Ideal) (ix2 r s) = if r.val < s.val then (1 : EReal) else 0 := by
  rw [val_main_v8_apply, val_main_call1_v4_apply, val_main_call1_v2_apply, val_main_call1_v0_apply,
    val_main_call1_v1_apply, val_main_call1_c_apply, val_main_call1_v3_apply, val_main_call1_v5_apply,
    val_main_call1_cst_apply, val_main_v7_apply, val_main_cst_0_apply]
  exact mask_eq r.val s.val r.isLt s.isLt

/-- The reference's matrix product at entry (r, s) is the inner product of rows r and s of the normalised embeddings. -/
theorem val_dot (x0 : (⟨S8192x256, .f32⟩ : BufTy).Contents (Elt Ideal)) (r s : Fin 8192) :
    val_main_v6 (F := Ideal) x0 (ix2 r s) = cosAt (val_main_v4 (F := Ideal) x0) r s := by
  rw [val_main_v6_apply]
  unfold cosAt
  refine Finset.sum_congr rfl fun k _ => ?_
  rw [val_main_v5_apply]
  have e1 : lidx_main_v6 (ix2 r s) k = ix2 r k :=
    funext fun a => by match a with | ⟨0, _⟩ => rfl | ⟨1, _⟩ => rfl
  have e2 : idx_main_v5 (ridx_main_v6 (ix2 r s) k) = ix2 s k :=
    funext fun a => by match a with | ⟨0, _⟩ => rfl | ⟨1, _⟩ => rfl
  rw [e1, e2]

/-- The reference's masked absolute difference at entry (r, s) is the specification's entry. -/
theorem val_entry (x0 : (⟨S8192x256, .f32⟩ : BufTy).Contents (Elt Ideal))
    (x1 : (⟨S8192x8192, .f32⟩ : BufTy).Contents (Elt Ideal)) (r s : Fin 8192) :
    val_main_v11 (F := Ideal) x0 x1 (ix2 r s) = entry x1 (val_main_v4 (F := Ideal) x0) r s := by
  rw [val_main_v11_apply, val_main_v10_apply, val_main_v9_apply, val_dot, val_mask]
  rfl

theorem ref_loss (x0 : (⟨Cert.ReferenceIdeal.S8192x256, .f32⟩ : BufTy).Contents (Elt Ideal))
    (x1 : (⟨Cert.ReferenceIdeal.S8192x8192, .f32⟩ : BufTy).Contents (Elt Ideal)) :
    Cert.ReferenceIdeal.Read.val_main_v14 (F := Ideal) x0 x1 =
      fun _ => Cert.Loss.loss x1 (Cert.ReferenceIdeal.Read.val_main_v4 (F := Ideal) x0) := by
  funext i
  rw [val_main_v14_apply, val_main_v13_apply, val_main_v12_apply, val_main_cst_3_apply, val_main_cst_2_apply,
    val_main_cst_1_apply]
  have h0 : (FloatOps.ofBits .f32 0x00000000#32 : Ideal .f32) = (0 : EReal) := Ideal.ofBits_zero_f32
  rw [h0]
  exact loss_eq x1 (val_main_v4 (F := Ideal) x0) (val_main_v11 (F := Ideal) x0 x1) (val_entry x0 x1)

end Cert.RefLoss

end
-- ==== Proof.lean ====
/-
  The certificate. The kernel streams the 8192 × 8192 similarity matrix tile by tile (8 × 4 tiles of 1024 × 2048),
  forms each tile of cosine similarities from two blocks of the normalised embeddings, and adds the tile's masked
  absolute differences into a running sum kept between grid points; at the last point it writes the sum, scaled and
  divided by the number of pairs. The reference forms the whole masked difference matrix and sums it at once.

  Frames: the kernel's program is run once for any float instance (both embedding windows read ONE array, held in two
  halves while the region runs), and the reference's frame is its generated run with the result dropped.
  Equality at the ideal instance: a sum over the matrix is the sum of its tiles' sums in any order on the extended
  reals, and (s · a) / n = s · (a / n) for the nonzero real n; no finiteness of the inputs is used.
-/
import proofs.«104046_j11570641895637_2_alg».proof.Defs
import proofs.«104046_j11570641895637_2_alg».proof.Proof.Gen.Kernel
import proofs.«104046_j11570641895637_2_alg».proof.Proof.Gen.KernelIdeal
import proofs.«104046_j11570641895637_2_alg».proof.Proof.Gen.ReferenceIdeal
import proofs.«104046_j11570641895637_2_alg».proof.Proof.Gen.Pre_finite_inputs
import proofs.«104046_j11570641895637_2_alg».proof.Proof.Gen.ReferenceIdeal.Run
import proofs.«104046_j11570641895637_2_alg».proof.Proof.K.Main
import proofs.«104046_j11570641895637_2_alg».proof.Proof.KI.Result
import proofs.«104046_j11570641895637_2_alg».proof.Proof.RefLoss
import Idealize.ShloMosaic.Adequacy
import Idealize.ShloMosaic.Init

noncomputable section

namespace Cert.Proof

open Idealize.ShloMosaic Idealize.ShloMosaic.TcCoe Idealize.SL.Sem

/-- The word-level program runs to the end and leaves both arguments as launched. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference is a straight line of host operations. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the loss of the similarities and the normalised embeddings. -/
theorem algebraic : Cert.algebraic_KernelIdeal_ReferenceIdeal := by
  intro m ρ m' ρ' _ hagree
  refine ⟨fun c => fun _ => Cert.Loss.loss (m ((c.tc : Thread Cert.KernelIdeal.nD Cert.KernelIdeal.τ).loc Cert.KernelIdeal.main_arg1))
      (Cert.ReferenceIdeal.Read.val_main_v4 (F := Ideal) (m ((c.tc : Thread Cert.KernelIdeal.nD Cert.KernelIdeal.τ).loc Cert.KernelIdeal.main_arg0))), ?_, ?_⟩
  · exact (θ_run Cert.KernelIdeal.defs _ _).mono (fun r h c =>
      ⟨(h c Cert.KernelIdeal.main_v6 (by decide)).trans (Cert.KernelIdeal.Hand.result m ρ c),
       (h c Cert.KernelIdeal.main_arg0 (by decide)).trans (Cert.KernelIdeal.Hand.W4_main_arg0 m ρ c),
       (h c Cert.KernelIdeal.main_arg1 (by decide)).trans (Cert.KernelIdeal.Hand.W4_main_arg1 m ρ c)⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, Cert.RefLoss.ref_loss, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
